-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x28x28 : Shape := ⟨3, ![65536, 28, 28]⟩
abbrev S784x100 : Shape := ⟨2, ![784, 100]⟩
abbrev S100 : Shape := ⟨1, ![100]⟩
abbrev S100x10 : Shape := ⟨2, ![100, 10]⟩
abbrev S10 : Shape := ⟨1, ![10]⟩
abbrev S_ : Shape := ⟨0, ![]⟩

class Facts : Prop where
  bcast_S_S65536x28x28 : S_.BroadcastsInDim S65536x28x28 (![] : Fin 0 → Fin S65536x28x28.rank)
  reducesTo_S65536x28x28_S_d0_1_2 : S65536x28x28.ReducesTo [0, 1, 2] S_
  h_S_ : 0 < S_.numel
  bcast_S_S784x100 : S_.BroadcastsInDim S784x100 (![] : Fin 0 → Fin S784x100.rank)
  reducesTo_S784x100_S_d0_1 : S784x100.ReducesTo [0, 1] S_
  bcast_S_S100 : S_.BroadcastsInDim S100 (![] : Fin 0 → Fin S100.rank)
  reducesTo_S100_S_d0 : S100.ReducesTo [0] S_
  bcast_S_S100x10 : S_.BroadcastsInDim S100x10 (![] : Fin 0 → Fin S100x10.rank)
  reducesTo_S100x10_S_d0_1 : S100x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S100x10 .f32) (main_arg5 : FVec F S10 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x10 .f32 := Host.absf main_arg4
  let main_cst_6 : FVec F S_ .f32 := constant S_ .f32 0x7F800000#32
  let main_v20 : FVec F S100x10 .f32 := broadcastInDim S100x10 ![] bcast_S_S100x10 main_cst_6
  let main_v21 : IVec S100x10 1 := cmpf .olt main_v19 main_v20
  let main_c_7 : IVec S_ 1 := constantI S_ 1 1#1
  let main_v22 : IVec S_ 1 := (fun x v => Host.reduce IntOp.andi x v reducesTo_S100x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S65536x28x28 .f32) (main_arg1 : FVec F S784x100 .f32) (main_arg2 : FVec F S100 .f32) (main_arg3 : FVec F S100 .f32) (main_arg4 : FVec F S100x10 .f32) (main_arg5 : FVec F S10 .f32) : IVec S_ 1 :=
  let main_v0 : FVec F S65536x28x28 .f32 := Host.absf main_arg0
  let main_cst : FVec F S_ .f32 := constant S_ .f32 0x7F800000#32
  let main_v1 : FVec F S65536x28x28 .f32 := broadcastInDim S65536x28x28 ![] bcast_S_S65536x28x28 main_cst
  let main_v2 : IVec S65536x28x28 1 := cmpf .olt main_v0 main_v1
  let main_c : IVec S_ 1 := constantI S_ 1 1#1
  let main_v3 : IVec S_ 1 := (fun x v => Host.reduce IntOp.andi x v reducesTo_S65536x28x28_S_d0_1_2 h_S_) main_v2 main_c
  let main_v4 : FVec F S784x100 .f32 := Host.absf main_arg1
  let main_cst_0 : FVec F S_ .f32 := constant S_ .f32 0x7F800000#32
  let main_v5 : FVec F S784x100 .f32 := broadcastInDim S784x100 ![] bcast_S_S784x100 main_cst_0
  let main_v6 : IVec S784x100 1 := cmpf .olt main_v4 main_v5
  let main_c_1 : IVec S_ 1 := constantI S_ 1 1#1
  let main_v7 : IVec S_ 1 := (fun x v => Host.reduce IntOp.andi x v reducesTo_S784x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_v13 main_v16
-- ==== Kernel.lean ====
abbrev S65536x28x28 : Shape := ⟨3, ![65536, 28, 28]⟩
abbrev S784x100 : Shape := ⟨2, ![784, 100]⟩
abbrev S100 : Shape := ⟨1, ![100]⟩
abbrev S100x10 : Shape := ⟨2, ![100, 10]⟩
abbrev S10 : Shape := ⟨1, ![10]⟩
abbrev S65536x784 : Shape := ⟨2, ![65536, 784]⟩
abbrev S1x100 : Shape := ⟨2, ![1, 100]⟩
abbrev S1x10 : Shape := ⟨2, ![1, 10]⟩
abbrev S65536x10 : Shape := ⟨2, ![65536, 10]⟩
abbrev S2x1x100 : Shape := ⟨3, ![2, 1, 100]⟩
abbrev S2048x784 : Shape := ⟨2, ![2048, 784]⟩
abbrev S2048x10 : Shape := ⟨2, ![2048, 10]⟩
abbrev S1x1x100 : Shape := ⟨3, ![1, 1, 100]⟩
abbrev S2048x100 : Shape := ⟨2, ![2048, 100]⟩
abbrev S2048 : Shape := ⟨1, ![2048]⟩
abbrev S2048x1 : Shape := ⟨2, ![2048, 1]⟩
abbrev S2x100 : Shape := ⟨2, ![2, 100]⟩
abbrev S_ : Shape := ⟨0, ![]⟩

abbrev nBuf : Space → Nat
  | .hbm => 15
  | .vmem => 11
  | .smem => 0
  | _ => 0

abbrev bufTy : (tb : Table) → Fin (tcTables nBuf tb) → BufTy
  | .hbm, ⟨0, _⟩ => ⟨S65536x28x28, .f32⟩
  | .hbm, ⟨1, _⟩ => ⟨S784x100, .f32⟩
  | .hbm, ⟨2, _⟩ => ⟨S100, .f32⟩
  | .hbm, ⟨3, _⟩ => ⟨S100, .f32⟩
  | .hbm, ⟨4, _⟩ => ⟨S100x10, .f32⟩
  | .hbm, ⟨5, _⟩ => ⟨S10, .f32⟩
  | .hbm, ⟨6, _⟩ => ⟨S65536x784, .f32⟩
  | .hbm, ⟨7, _⟩ => ⟨S1x100, .f32⟩
  | .hbm, ⟨8, _⟩ => ⟨S1x10, .f32⟩
  | .hbm, ⟨9, _⟩ => ⟨S65536x10, .f32⟩
  | .hbm, ⟨10, _⟩ => ⟨S2x1x100, .f32⟩
  | .hbm, ⟨11, _⟩ => ⟨S2x100, .f32⟩
  | .hbm, ⟨12, _⟩ => ⟨S_, .f32⟩
  | .hbm, ⟨13, _⟩ => ⟨S100, .f32⟩
  | .hbm, ⟨14, _⟩ => ⟨S100, .f32⟩
  | .local _ .vmem, ⟨0, _⟩ => ⟨S2048x784, .f32⟩
  | .local _ .vmem, ⟨1, _⟩ => ⟨S2048x784, .f32⟩
  | .local _ .vmem, ⟨2, _⟩ => ⟨S784x100, .f32⟩
  | .local _ .vmem, ⟨3, _⟩ => ⟨S1x100, .f32⟩
  | .local _ .vmem, ⟨4, _⟩ => ⟨S100x10, .f32⟩
  | .local _ .vmem, ⟨5, _⟩ => ⟨S1x10, .f32⟩
  | .local _ .vmem, ⟨6, _⟩ => ⟨S2048x10, .f32⟩
  | .local _ .vmem, ⟨7, _⟩ => ⟨S2048x10, .f32⟩
  | .local _ .vmem, ⟨8, _⟩ => ⟨S1x1x100, .f32⟩
  | .local _ .vmem, ⟨9, _⟩ => ⟨S1x1x100, .f32⟩
  | .local _ .vmem, ⟨10, _⟩ => ⟨S1x100, .f32⟩
  | _, _ => ⟨S65536x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg1 : BitVec 32 := BitVec.ofNat 32 (i 1).val
  let c15_i32_12 : BitVec 32 := 15#32
  let v31 : BitVec 1 := Scalar.cmpi .eq arg1 c15_i32_12
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S784x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S100x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S65536x28x28_S65536x784 : S65536x28x28.ShapeCasts S65536x784
  shapeCasts_S100_S1x100 : S100.ShapeCasts S1x100
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  shapeCasts_S2048x784_S2048x784 : S2048x784.ShapeCasts S2048x784
  bitsLt_bf16_f32 : FTy.bits .bf16 < FTy.bits .f32
  inb_S784x100_S784x100_0_0 : ∀ a, (![0, 0] : Fin 2 → Nat) a + S784x100.size a ≤ S784x100.size a
  h_S784x100 : 0 < S784x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  natLt_1_32 : 1 < 32
  reduces_S2048x100_S100 : S2048x100.Reduces [0] S100
  slices_S2048x100_o2047_0_S1x100 : S2048x100.Slices ![2047, 0] S1x100
  inb_S1x1x100_S1x1x100_0_0_0 : ∀ a, (![0, 0, 0] : Fin 3 → Nat) a + S1x1x100.size a ≤ S1x1x100.size a
  h_S1x1x100 : 0 < S1x1x100.numel
  shapeCasts_S1x1x100_S1x100 : S1x1x100.ShapeCasts S1x100
  shapeCasts_S1x100_S1x1x100 : S1x100.ShapeCasts S1x1x100
  inb_S100x10_S100x10_0_0 : ∀ a, (![0, 0] : Fin 2 → Nat) a + S100x10.size a ≤ S100x10.size a
  h_S100x10 : 0 < S100x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  shapeCasts_S2x1x100_S2x100 : S2x1x100.ShapeCasts S2x100
  reducesTo_S2x100_S100_d0 : S2x100.ReducesTo [0] S100
  h_S_ : 0 < S_.numel
  dot_S2048x784_S784x100_S2048x100_1_0_0_1_n_n_wf : DotDims.WF S2048x784 S784x100 S2048x100 [1] [0] [0] [1] [] []
  dot_S2048x100_S100x10_S2048x10_1_0_0_1_n_n_wf : DotDims.WF S2048x100 S100x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x100.size a ≤ S784x100.size a
  hwx0_1 : ∀ i : grid0.Coords, EltTy.bits .f32 = 32 ∨ (Rect.block (s := S784x100) S784x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x10.size a ≤ S100x10.size a
  hwx0_3 : ∀ i : grid0.Coords, EltTy.bits .f32 = 32 ∨ (Rect.block (s := S100x10) S100x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x10.size a ≤ S65536x10.size a
  hwx0_5 : ∀ i : grid0.Coords, EltTy.bits .f32 = 32 ∨ (Rect.block (s := S65536x10) S2048x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x100.size a ≤ S2x1x100.size a
  hwx0_6 : ∀ i : grid0.Coords, EltTy.bits .f32 = 32 ∨ (Rect.block (s := S2x1x100) S1x1x100.size (cc0_transform_6 i) (hinb0_6 i)).WholeWords (EltTy.packing .f32)

variable [Facts₀]

def dot_S2048x784_S784x100_S2048x100_1_0_0_1_n_n : DotDims S2048x784 S784x100 S2048x100 where
  lhsContracting := [1]
  rhsContracting := [0]
  lhsNonContracting := [0]
  rhsNonContracting := [1]
  lhsBatch := []
  rhsBatch := []
  wf := dot_S2048x784_S784x100_S2048x100_1_0_0_1_n_n_wf
def dot_S2048x100_S100x10_S2048x10_1_0_0_1_n_n : DotDims S2048x100 S100x10 S2048x10 where
  lhsContracting := [1]
  rhsContracting := [0]
  lhsNonContracting := [0]
  rhsNonContracting := [1]
  lhsBatch := []
  rhsBatch := []
  wf := dot_S2048x100_S100x10_S2048x10_1_0_0_1_n_n_wf

abbrev win0_0 : Pipeline.Window sig grid0 :=
  Pipeline.Window.ofSpec (Memref.whole main_v0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S2048x10.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x1x100.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S65536x28x28 : Shape := ⟨3, ![65536, 28, 28]⟩
abbrev S784x100 : Shape := ⟨2, ![784, 100]⟩
abbrev S100 : Shape := ⟨1, ![100]⟩
abbrev S100x10 : Shape := ⟨2, ![100, 10]⟩
abbrev S10 : Shape := ⟨1, ![10]⟩
abbrev S65536x784 : Shape := ⟨2, ![65536, 784]⟩
abbrev S65536x100 : Shape := ⟨2, ![65536, 100]⟩
abbrev S1x100 : Shape := ⟨2, ![1, 100]⟩
abbrev S_ : Shape := ⟨0, ![]⟩
abbrev S65535x100 : Shape := ⟨2, ![65535, 100]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 40
  | .vmem => 0
  | .smem => 0
  | _ => 0

abbrev bufTy : (tb : Table) → Fin (tcTables nBuf tb) → BufTy
  | .hbm, ⟨0, _⟩ => ⟨S65536x28x28, .f32⟩
  | .hbm, ⟨1, _⟩ => ⟨S784x100, .f32⟩
  | .hbm, ⟨2, _⟩ => ⟨S100, .f32⟩
  | .hbm, ⟨3, _⟩ => ⟨S100, .f32⟩
  | .hbm, ⟨4, _⟩ => ⟨S100x10, .f32⟩
  | .hbm, ⟨5, _⟩ => ⟨S10, .f32⟩
  | .hbm, ⟨6, _⟩ => ⟨S65536x784, .f32⟩
  | .hbm, ⟨7, _⟩ => ⟨S65536x100, .f32⟩
  | .hbm, ⟨8, _⟩ => ⟨S1x100, .f32⟩
  | .hbm, ⟨9, _⟩ => ⟨S65536x100, .f32⟩
  | .hbm, ⟨10, _⟩ => ⟨S65536x100, .f32⟩
  | .hbm, ⟨11, _⟩ => ⟨S_, .f32⟩
  | .hbm, ⟨12, _⟩ => ⟨S65536x100, .f32⟩
  | .hbm, ⟨13, _⟩ => ⟨S65536x100, .f32⟩
  | .hbm, ⟨14, _⟩ => ⟨S65535x100, .f32⟩
  | .hbm, ⟨15, _⟩ => ⟨S_, .f32⟩
  | .hbm, ⟨16, _⟩ => ⟨S65535x100, .f32⟩
  | .hbm, ⟨17, _⟩ => ⟨S65535x100, .i1⟩
  | .hbm, ⟨18, _⟩ => ⟨S65535x100, .f32⟩
  | .hbm, ⟨19, _⟩ => ⟨S_, .f32⟩
  | .hbm, ⟨20, _⟩ => ⟨S100, .f32⟩
  | .hbm, ⟨21, _⟩ => ⟨S100, .f32⟩
  | .hbm, ⟨22, _⟩ => ⟨S65536x10, .f32⟩
  | .hbm, ⟨23, _⟩ => ⟨S1x10, .f32⟩
  | .hbm, ⟨24, _⟩ => ⟨S65536x10, .f32⟩
  | .hbm, ⟨25, _⟩ => ⟨S65536x10, .f32⟩
  | .hbm, ⟨26, _⟩ => ⟨S_, .f32⟩
  | .hbm, ⟨27, _⟩ => ⟨S65536, .f32⟩
  | .hbm, ⟨28, _⟩ => ⟨S_, .f32⟩
  | .hbm, ⟨29, _⟩ => ⟨S65536, .f32⟩
  | .hbm, ⟨30, _⟩ => ⟨S65536, .f32⟩
  | .hbm, ⟨31, _⟩ => ⟨S65536x1, .f32⟩
  | .hbm, ⟨32, _⟩ => ⟨S65536x10, .f32⟩
  | .hbm, ⟨33, _⟩ => ⟨S65536x10, .f32⟩
  | .hbm, ⟨34, _⟩ => ⟨S65536x10, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S65536x10, .f32⟩
  | .hbm, ⟨39, _⟩ => ⟨S65536x10, .f32⟩
  | _, _ => ⟨S65536x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  shapeCasts_S65536x28x28_S65536x784 : S65536x28x28.ShapeCasts S65536x784
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S_S65536x100 : S_.BroadcastsInDim S65536x100 (![] : Fin 0 → Fin S65536x100.rank)
  slices_S65536x100_S65535x100_0_0 : S65536x100.Slices ![0, 0] S65535x100
  bcast_S_S65535x100 : S_.BroadcastsInDim S65535x100 (![] : Fin 0 → Fin S65535x100.rank)
  reducesTo_S65535x100_S100_d0 : S65535x100.ReducesTo [0] S100
  h_S_ : 0 < S_.numel
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x100_S65536x100_1_0_0_1_n_n_wf : DotDims.WF S65536x784 S784x100 S65536x100 [1] [0] [0] [1] [] []
  dot_S65536x100_S100x10_S65536x10_1_0_0_1_n_n_wf : DotDims.WF S65536x100 S100x10 S65536x10 [1] [0] [0] [1] [] []

variable [Facts₀]

def dot_S65536x784_S784x100_S65536x100_1_0_0_1_n_n : DotDims S65536x784 S784x100 S65536x100 where
  lhsContracting := [1]
  rhsContracting := [0]
  lhsNonContracting := [0]
  rhsNonContracting := [1]
  lhsBatch := []
  rhsBatch := []
  wf := dot_S65536x784_S784x100_S65536x100_1_0_0_1_n_n_wf
def dot_S65536x100_S100x10_S65536x10_1_0_0_1_n_n : DotDims S65536x100 S100x10 S65536x10 where
  lhsContracting := [1]
  rhsContracting := [0]
  lhsNonContracting := [0]
  rhsNonContracting := [1]
  lhsBatch := []
  rhsBatch := []
  wf := dot_S65536x100_S100x10_S65536x10_1_0_0_1_n_n_wf

class Facts : Prop extends Facts₀ where

variable [Facts]
-- ==== Proof.FrameBits.Shared.lean ====
/-
  The grid of this kernel is 2 × 16: the outer coordinate picks a half of the batch, the inner one a tile of 2048 rows
  within the half, and point `t` of the row-major order has inner coordinate `t % 16`. The body branches three times
  on the inner coordinate alone: at inner step 0 it overwrites the running count kept in the scratch row, at every
  other step it adds to it, and at inner step 15 it copies the running count into the second output's block.
  Here: those three conditions in closed form over the points, where the second output is idle, the memrefs the body
  is called with, and the invariant the region starts from spelled out (the scratch row at some contents, the
  generator register at some state).
-/
import proofs.«117802_j59803124630057_2_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offset of a rank-2 (rank-3) block, as the constant function. -/
theorem z2 : (![0, 0] : Fin 2 → Nat) = fun _ => 0 := funext fun a => by fin_cases a <;> rfl
theorem z3 : (![0, 0, 0] : Fin 3 → Nat) = fun _ => 0 := funext fun a => by fin_cases a <;> rfl

/-! ## The three conditions -/

/-- The first branch's condition as the body computes it: "the inner coordinate is 0". -/
abbrev condFirst (i : grid0.Coords) : Prop :=
  (Scalar.cmpi .ne (Scalar.extui (Scalar.cmpi .eq (BitVec.ofNat 32 (i 1).val) 0#32)) 0#32) = 1#1
/-- The second branch's condition: "the inner coordinate is not 0". -/
abbrev condLater (i : grid0.Coords) : Prop :=
  (Scalar.cmpi .ne (Scalar.extui (Scalar.cmpi .ne (BitVec.ofNat 32 (i 1).val) 0#32)) 0#32) = 1#1
/-- The third branch's condition: "the inner coordinate is 15". -/
abbrev condLast (i : grid0.Coords) : Prop := k0_cond3 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLater : ∀ t : Fin cfg0.N, condLater (grid0.coords t) ↔ ¬ t.val % 16 = 0 :=
  (by decide +kernel : ∀ t : Fin grid0.N, condLater (grid0.coords t) ↔ ¬ t.val % 16 = 0)
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from inner step 15 the body stores nothing into the second output's block, -/
theorem idle6 : ∀ t : Fin cfg0.N, ¬condLast (grid0.coords t) → cfg0.idle 6 (grid0.coords t) = true := by decide +kernel
/-- and the block is not written back there; -/
theorem noFlush6 : ∀ t : Fin cfg0.N, ¬condLast (grid0.coords t) → (cfg0.win 6).flush t = false := by decide +kernel
/-- at inner step 15 it is live. -/
theorem live6 : ∀ t : Fin cfg0.N, condLast (grid0.coords t) → cfg0.idle 6 (grid0.coords t) = false := by decide +kernel

/-! ## The memrefs the body is called with -/

abbrev ms0 (t : Fin cfg0.N) : Memref sig .tc .vmem S2048x784 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S784x100 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x100 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S100x10 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x10 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x10 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x100 .f32 := win0_6.stage (cfg0.slots t 6)
abbrev hs6 (t : Fin cfg0.N) : (ms6 t).IsWhole := hstage0_6 ((cfg0.slots t 6).cast nbuf0_6)
/-- The scratch row holding the running count: a whole buffer of the kernel's own. -/
abbrev scM : Memref sig .tc .vmem S1x100 .f32 := Memref.whole cc0_scratch0

/-- The invariant the region starts from and ends with: the scratch row at some contents and the generator register
    at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.LibWholeStore.lean ====
/-
  A buffer read back after stores the LAST of which rewrote the whole block.

  A running accumulator kept in a scratch buffer is rewritten whole on every trip of a loop: whatever the earlier
  stores left, and whatever the buffer held before, a read after the store is the store's payload; and a load
  through the whole-block rectangle reads the buffer.  Nothing here mentions a program.
-/
import Idealize.ShloMosaic.Lib.Pipeline.Value

namespace Cert.LibWholeStore

open Idealize.ShloMosaic

variable {Val : EltTy → Type} {S : Shape} {e : EltTy} {sig : RefSig} {κ : Kind} {sp : Space}

/-- After a list of stores (the last one first) whose last is a store of the whole block, the buffer reads that
    store's payload, whatever the earlier stores and the prior contents were. -/
theorem read_writes_cons_whole [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole-block rectangle reads the buffer's contents. -/
theorem readAt_whole (v : View sig κ sp S e) (f : v.ty.Contents Val)
    {off : Fin S.rank → Nat} (h : off = fun _ => 0) (inb : ∀ a, off a + S.size a ≤ S.size a) :
    v.readAt Val (Rect.unit off S.size inb).toLoadRect f = v.read Val f := by
  rw [View.readAt_eq_ld, View.ld_unit_zero h inb]

end Cert.LibWholeStore
-- ==== Proof.FrameBits.RunFirst.lean ====
/-
  The body at inner step 0, run on any whole staging memrefs: it reads the five inputs' blocks, leaves the class
  probabilities of the tile in the first output's block, OVERWRITES the running count in the scratch row with this
  tile's count, and leaves the second output's block as it found it. Every store rewrites a whole block, so what a block
  holds afterwards is the stored value whatever it held before.
-/
import proofs.«117802_j59803124630057_2_alg».proof.Proof.FrameBits.Shared
import proofs.«117802_j59803124630057_2_alg».proof.Proof.Gen.Kernel.Skeleton
import proofs.«117802_j59803124630057_2_alg».proof.Proof.LibWholeStore

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runFirst (c : Dev nD) (i : grid0.Coords) (arg2 : Memref sig .tc .vmem S2048x784 .f32) (harg2 : arg2.IsWhole) (arg3 : Memref sig .tc .vmem S784x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x1x100 .f32) (harg8 : arg8.IsWhole) (arg9 : Memref sig .tc .vmem S1x100 .f32) (harg9 : arg9.IsWhole)
    (hc1 : condFirst i) (hc2 : ¬condLater i) (hc3 : ¬condLast i) (x0 : Vec F S2048x784 .f32) (x1 : Vec F S784x100 .f32) (x2 : Vec F S1x100 .f32) (x3 : Vec F S100x10 .f32) (x4 : Vec F S1x10 .f32) (x6 : Vec F S1x1x100 .f32) (xs : Vec F S1x100 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare x6
        ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay1 (k0_pay2 x0 x1 x2) x3 x4)
            ∗ owns (c : Thread nD τ) arg8 fullShare x6
            ∗ owns (c : Thread nD τ) arg9 fullShare (k0_pay4 i x0 x1 x2)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6; obtain rfl := harg9.eq_unread hfs
  have e0 := (Cert.LibWholeStore.readAt_whole arg2.view (harg2.unread x0) z2 inb_S2048x784_S2048x784_0_0).trans hf0
  have e1 := (Cert.LibWholeStore.readAt_whole arg3.view (harg3.unread x1) z2 inb_S784x100_S784x100_0_0).trans hf1
  have e2 := (Cert.LibWholeStore.readAt_whole arg4.view (harg4.unread x2) z2 inb_S1x100_S1x100_0_0).trans hf2
  have e3 := (Cert.LibWholeStore.readAt_whole arg5.view (harg5.unread x3) z2 inb_S100x10_S100x10_0_0).trans hf3
  have e4 := (Cert.LibWholeStore.readAt_whole arg6.view (harg6.unread x4) z2 inb_S1x10_S1x10_0_0).trans hf4
  have es := (Cert.LibWholeStore.readAt_whole arg9.view (harg9.unread xs) z2 inb_S1x100_S1x100_0_0).trans hfs
  sl_exec (disch := first | exact hc1 | exact hc2 | exact hc3)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    exact Cert.LibWholeStore.read_writes_cons_whole _ _ z2 _ _ _
  isplitl [H6]; · iexists _; isplitr; · ipureintro; exact hf6
                  iexact H6
  iexists _; isplitr
  swap; · iexact HS
  ipureintro
  exact Cert.LibWholeStore.read_writes_cons_whole _ _ z2 _ _ _

end Cert.Kernel.Body

end
-- ==== Proof.FrameBits.RunMid.lean ====
/-
  The body at an inner step strictly between 0 and 15: as at step 0, except that the running count in the scratch row
  is the PREVIOUS count plus this tile's count.
-/
import proofs.«117802_j59803124630057_2_alg».proof.Proof.FrameBits.Shared
import proofs.«117802_j59803124630057_2_alg».proof.Proof.Gen.Kernel.Skeleton
import proofs.«117802_j59803124630057_2_alg».proof.Proof.LibWholeStore

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runMid (c : Dev nD) (i : grid0.Coords) (arg2 : Memref sig .tc .vmem S2048x784 .f32) (harg2 : arg2.IsWhole) (arg3 : Memref sig .tc .vmem S784x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x1x100 .f32) (harg8 : arg8.IsWhole) (arg9 : Memref sig .tc .vmem S1x100 .f32) (harg9 : arg9.IsWhole)
    (hc1 : ¬condFirst i) (hc2 : condLater i) (hc3 : ¬condLast i) (x0 : Vec F S2048x784 .f32) (x1 : Vec F S784x100 .f32) (x2 : Vec F S1x100 .f32) (x3 : Vec F S100x10 .f32) (x4 : Vec F S1x10 .f32) (x6 : Vec F S1x1x100 .f32) (xs : Vec F S1x100 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare x6
        ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay1 (k0_pay2 x0 x1 x2) x3 x4)
            ∗ owns (c : Thread nD τ) arg8 fullShare x6
            ∗ owns (c : Thread nD τ) arg9 fullShare (k0_pay5 i x0 x1 x2 xs)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6; obtain rfl := harg9.eq_unread hfs
  have e0 := (Cert.LibWholeStore.readAt_whole arg2.view (harg2.unread x0) z2 inb_S2048x784_S2048x784_0_0).trans hf0
  have e1 := (Cert.LibWholeStore.readAt_whole arg3.view (harg3.unread x1) z2 inb_S784x100_S784x100_0_0).trans hf1
  have e2 := (Cert.LibWholeStore.readAt_whole arg4.view (harg4.unread x2) z2 inb_S1x100_S1x100_0_0).trans hf2
  have e3 := (Cert.LibWholeStore.readAt_whole arg5.view (harg5.unread x3) z2 inb_S100x10_S100x10_0_0).trans hf3
  have e4 := (Cert.LibWholeStore.readAt_whole arg6.view (harg6.unread x4) z2 inb_S1x10_S1x10_0_0).trans hf4
  have es := (Cert.LibWholeStore.readAt_whole arg9.view (harg9.unread xs) z2 inb_S1x100_S1x100_0_0).trans hfs
  sl_exec (disch := first | exact hc1 | exact hc2 | exact hc3)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    exact Cert.LibWholeStore.read_writes_cons_whole _ _ z2 _ _ _
  isplitl [H6]; · iexists _; isplitr; · ipureintro; exact hf6
                  iexact H6
  iexists _; isplitr
  swap; · iexact HS
  ipureintro
  exact Cert.LibWholeStore.read_writes_cons_whole _ _ z2 _ _ _

end Cert.Kernel.Body

end
-- ==== Proof.FrameBits.RunLast.lean ====
/-
  The body at inner step 15: the running count in the scratch row becomes the previous count plus this tile's count,
  and that new count, read back from the scratch row, is copied into the second output's block.
-/
import proofs.«117802_j59803124630057_2_alg».proof.Proof.FrameBits.Shared
import proofs.«117802_j59803124630057_2_alg».proof.Proof.Gen.Kernel.Skeleton
import proofs.«117802_j59803124630057_2_alg».proof.Proof.LibWholeStore

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runLast (c : Dev nD) (i : grid0.Coords) (arg2 : Memref sig .tc .vmem S2048x784 .f32) (harg2 : arg2.IsWhole) (arg3 : Memref sig .tc .vmem S784x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x1x100 .f32) (harg8 : arg8.IsWhole) (arg9 : Memref sig .tc .vmem S1x100 .f32) (harg9 : arg9.IsWhole)
    (hc1 : ¬condFirst i) (hc2 : condLater i) (hc3 : condLast i) (x0 : Vec F S2048x784 .f32) (x1 : Vec F S784x100 .f32) (x2 : Vec F S1x100 .f32) (x3 : Vec F S100x10 .f32) (x4 : Vec F S1x10 .f32) (xs : Vec F S1x100 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay1 (k0_pay2 x0 x1 x2) x3 x4)
            ∗ owns (c : Thread nD τ) arg8 fullShare (k0_pay6 (k0_pay5 i x0 x1 x2 xs))
            ∗ owns (c : Thread nD τ) arg9 fullShare (k0_pay5 i x0 x1 x2 xs)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg9.eq_unread hfs
  have e0 := (Cert.LibWholeStore.readAt_whole arg2.view (harg2.unread x0) z2 inb_S2048x784_S2048x784_0_0).trans hf0
  have e1 := (Cert.LibWholeStore.readAt_whole arg3.view (harg3.unread x1) z2 inb_S784x100_S784x100_0_0).trans hf1
  have e2 := (Cert.LibWholeStore.readAt_whole arg4.view (harg4.unread x2) z2 inb_S1x100_S1x100_0_0).trans hf2
  have e3 := (Cert.LibWholeStore.readAt_whole arg5.view (harg5.unread x3) z2 inb_S100x10_S100x10_0_0).trans hf3
  have e4 := (Cert.LibWholeStore.readAt_whole arg6.view (harg6.unread x4) z2 inb_S1x10_S1x10_0_0).trans hf4
  have es := (Cert.LibWholeStore.readAt_whole arg9.view (harg9.unread xs) z2 inb_S1x100_S1x100_0_0).trans hfs
  sl_exec (disch := first | exact hc1 | exact hc2 | exact hc3)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    exact Cert.LibWholeStore.read_writes_cons_whole _ _ z2 _ _ _
  isplitl [H6]
  · iexists _; isplitr
    swap; · iexact H6
    ipureintro
    sl_unfold_words
    rw [Cert.LibWholeStore.read_writes_cons_whole _ _ z3 _ _ _, View.readCov_unit_zero _ z2]
  iexists _; isplitr
  swap; · iexact HS
  ipureintro
  sl_unfold_words
  exact Cert.LibWholeStore.read_writes_cons_whole _ _ z2 _ _ _

end Cert.Kernel.Body

end
-- ==== Proof.FrameBits.Frame.lean ====
/-
  The frame of the kernel as printed (read at the word-level instance by the claim): every weakly fair run of the program ends, faults nowhere, and leaves the six
  argument arrays as they were.

  The proof data say what each staging block holds after the body at each of the 32 points. The five inputs' blocks
  are left in place. The first output's block holds the tile's class probabilities. The scratch row is carried from
  point to point: `scrAt n` is its contents after point `n` — this tile's count at inner step 0, the previous
  contents plus this tile's count at every other step — and the invariant before point `n + 1` holds the scratch row
  at `scrAt n`. The second output's block holds the scratch row's contents at inner step 15, where it is written
  back; at the other points the body leaves it alone and it is not written back.
-/
import proofs.«117802_j59803124630057_2_alg».proof.Proof.FrameBits.RunFirst
import proofs.«117802_j59803124630057_2_alg».proof.Proof.FrameBits.RunMid
import proofs.«117802_j59803124630057_2_alg».proof.Proof.FrameBits.RunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch row and the outputs' blocks hold after each point -/

/-- The scratch row after position `n`: overwritten with the tile's count at inner step 0, added to otherwise. -/
def scrAt (c : Dev nD) : (n : ℕ) → n < cfg0.N → Vec F S1x100 .f32
  | 0, hn => k0_pay4 (grid0.coords ⟨0, hn⟩) (iblk m c 0 ⟨0, hn⟩) (iblk m c 1 ⟨0, hn⟩) (iblk m c 2 ⟨0, hn⟩)
  | n + 1, hn =>
    if (n + 1) % 16 = 0 then k0_pay4 (grid0.coords ⟨n + 1, hn⟩) (iblk m c 0 ⟨n + 1, hn⟩) (iblk m c 1 ⟨n + 1, hn⟩) (iblk m c 2 ⟨n + 1, hn⟩)
    else k0_pay5 (grid0.coords ⟨n + 1, hn⟩) (iblk m c 0 ⟨n + 1, hn⟩) (iblk m c 1 ⟨n + 1, hn⟩) (iblk m c 2 ⟨n + 1, hn⟩) (scrAt c n (Nat.lt_of_succ_lt hn))

theorem scrAt_first (c : Dev nD) (t : Fin cfg0.N) (h0 : t.val % 16 = 0) :
    scrAt m c t.val t.isLt = k0_pay4 (grid0.coords t) (iblk m c 0 t) (iblk m c 1 t) (iblk m c 2 t) := by
  obtain ⟨n, hn⟩ := t
  cases n with
  | zero => rfl
  | succ n => exact if_pos h0

theorem scrAt_later (c : Dev nD) (t : Fin cfg0.N) (h0 : ¬t.val % 16 = 0) :
    scrAt m c t.val t.isLt = k0_pay5 (grid0.coords t) (iblk m c 0 t) (iblk m c 1 t) (iblk m c 2 t)
      (scrAt m c (t.val - 1) (Nat.lt_of_le_of_lt (Nat.sub_le _ _) t.isLt)) := by
  obtain ⟨n, hn⟩ := t
  cases n with
  | zero => exact absurd (Nat.zero_mod _) h0
  | succ n => exact if_neg h0

/-- The first output's block after point `t`: the class probabilities of the tile's rows. -/
def probsAt (c : Dev nD) (t : Fin cfg0.N) : Vec F S2048x10 .f32 :=
  k0_pay1 (k0_pay2 (iblk m c 0 t) (iblk m c 1 t) (iblk m c 2 t)) (iblk m c 3 t) (iblk m c 4 t)

/-- The second output's block after a point where the body stores into it: the scratch row, as a [1,1,100] block. -/
def countAt (c : Dev nD) (t : Fin cfg0.N) : Vec F S1x1x100 .f32 := k0_pay6 (scrAt m c t.val t.isLt)

/-- The region's invariant before position `n`: at the start the scratch row at anything; afterwards at what the
    point before left in it; the generator register at some state. -/
def PhiS (c : Dev nD) : (n : ℕ) → n ≤ cfg0.N → sProp 𝕄
  | 0, _ => Pipeline.ΦA spec0 c
  | n + 1, hn => iprop(iprop(owns (c : Thread nD τ) scM fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scrAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => probsAt m c t
    | ⟨6, _⟩ => countAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = probsAt m c t := by dsimp only [dats]
theorem after6 (c : Dev nD) (t : Fin cfg0.N) : (dats m 0 c).after 6 t = countAt m c t := by dsimp only [dats]

/-- Each input's current staging block holds its block of the array at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (probsAt m c t) := by
  unfold Dat.leavesExact; rw [live5 t, after5]
theorem leaves6_live (c : Dev nD) (t : Fin cfg0.N) (h : condLast (grid0.coords t)) :
    (dats m 0 c).leavesExact 6 t = owns (c : Thread nD τ) (ms6 t) fullShare (countAt m c t) := by
  unfold Dat.leavesExact; rw [live6 t h, after6]

set_option maxHeartbeats 4800000 in
/-- The body at any point: the inputs' memrefs hold their blocks; the inner coordinate says which of the three cases
    the point is in; the invariant hands the body the scratch row at what the point before left (at anything at the
    very first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  have hN : t.val < 32 := lt_of_lt_of_eq t.isLt (show cfg0.N = 32 from N_0)
  unfold probsAt
  by_cases h0 : t.val % 16 = 0
  · have hc1 : condFirst (grid0.coords t) := (hcondFirst t).mpr h0
    have hc2 : ¬condLater (grid0.coords t) := fun h => ((hcondLater t).mp h) h0
    have hc3 : ¬condLast (grid0.coords t) := fun h => by have := (hcondLast t).mp h; omega
    rw [Dat.leavesExact_idle (dats m 0 c) 6 t (idle6 t hc3) (noFlush6 t hc3)]
    rw [scrAt_first m c t h0]
    by_cases hz : t.val = 0
    · rw [PhiS_castSucc m c t, PhiS_zero m c _ _ hz, PhiA_eq]
      · iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
        iapply (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc1 hc2 hc3
          (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS]; · iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · rw [PhiS_castSucc m c t, PhiS_pos m c _ _ hz]
      · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc1 hc2 hc3
          (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS]; · iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hc1 : ¬condFirst (grid0.coords t) := fun h => h0 ((hcondFirst t).mp h)
    have hc2 : condLater (grid0.coords t) := (hcondLater t).mpr h0
    have hz : t.val ≠ 0 := fun h => h0 (by rw [h])
    rw [scrAt_later m c t h0]
    rw [PhiS_castSucc m c t, PhiS_pos m c _ _ hz]
    by_cases h15 : t.val % 16 = 15
    · have hc3 : condLast (grid0.coords t) := (hcondLast t).mpr h15
      rw [leaves6_live m c t hc3]
      unfold countAt
      rw [scrAt_later m c t h0]
      · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply (runLast c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc1 hc2 hc3
          (iblk m c 0 t) (iblk m c 1 t) (iblk m c 2 t) (iblk m c 3 t) (iblk m c 4 t) _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS]; · iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · have hc3 : ¬condLast (grid0.coords t) := fun h => h15 ((hcondLast t).mp h)
      rw [Dat.leavesExact_idle (dats m 0 c) 6 t (idle6 t hc3) (noFlush6 t hc3)]
      · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply (runMid c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc1 hc2 hc3
          (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS]; · iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has each array of the pipeline at
    what the proof data compute and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.FrameIdeal.Shared.lean ====
/-
  The grid of this kernel is 2 × 16: the outer coordinate picks a half of the batch, the inner one a tile of 2048 rows
  within the half, and point `t` of the row-major order has inner coordinate `t % 16`. The body branches three times
  on the inner coordinate alone: at inner step 0 it overwrites the running count kept in the scratch row, at every
  other step it adds to it, and at inner step 15 it copies the running count into the second output's block.
  Here: those three conditions in closed form over the points, where the second output is idle, the memrefs the body
  is called with, and the invariant the region starts from spelled out (the scratch row at some contents, the
  generator register at some state).
-/
import proofs.«117802_j59803124630057_2_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offset of a rank-2 (rank-3) block, as the constant function. -/
theorem z2 : (![0, 0] : Fin 2 → Nat) = fun _ => 0 := funext fun a => by fin_cases a <;> rfl
theorem z3 : (![0, 0, 0] : Fin 3 → Nat) = fun _ => 0 := funext fun a => by fin_cases a <;> rfl

/-! ## The three conditions -/

/-- The first branch's condition as the body computes it: "the inner coordinate is 0". -/
abbrev condFirst (i : grid0.Coords) : Prop :=
  (Scalar.cmpi .ne (Scalar.extui (Scalar.cmpi .eq (BitVec.ofNat 32 (i 1).val) 0#32)) 0#32) = 1#1
/-- The second branch's condition: "the inner coordinate is not 0". -/
abbrev condLater (i : grid0.Coords) : Prop :=
  (Scalar.cmpi .ne (Scalar.extui (Scalar.cmpi .ne (BitVec.ofNat 32 (i 1).val) 0#32)) 0#32) = 1#1
/-- The third branch's condition: "the inner coordinate is 15". -/
abbrev condLast (i : grid0.Coords) : Prop := k0_cond3 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLater : ∀ t : Fin cfg0.N, condLater (grid0.coords t) ↔ ¬ t.val % 16 = 0 :=
  (by decide +kernel : ∀ t : Fin grid0.N, condLater (grid0.coords t) ↔ ¬ t.val % 16 = 0)
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from inner step 15 the body stores nothing into the second output's block, -/
theorem idle6 : ∀ t : Fin cfg0.N, ¬condLast (grid0.coords t) → cfg0.idle 6 (grid0.coords t) = true := by decide +kernel
/-- and the block is not written back there; -/
theorem noFlush6 : ∀ t : Fin cfg0.N, ¬condLast (grid0.coords t) → (cfg0.win 6).flush t = false := by decide +kernel
/-- at inner step 15 it is live. -/
theorem live6 : ∀ t : Fin cfg0.N, condLast (grid0.coords t) → cfg0.idle 6 (grid0.coords t) = false := by decide +kernel

/-! ## The memrefs the body is called with -/

abbrev ms0 (t : Fin cfg0.N) : Memref sig .tc .vmem S2048x784 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S784x100 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x100 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S100x10 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x10 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x10 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x100 .f32 := win0_6.stage (cfg0.slots t 6)
abbrev hs6 (t : Fin cfg0.N) : (ms6 t).IsWhole := hstage0_6 ((cfg0.slots t 6).cast nbuf0_6)
/-- The scratch row holding the running count: a whole buffer of the kernel's own. -/
abbrev scM : Memref sig .tc .vmem S1x100 .f32 := Memref.whole cc0_scratch0

/-- The invariant the region starts from and ends with: the scratch row at some contents and the generator register
    at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.FrameIdeal.RunFirst.lean ====
/-
  The body at inner step 0, run on any whole staging memrefs: it reads the five inputs' blocks, leaves the class
  probabilities of the tile in the first output's block, OVERWRITES the running count in the scratch row with this
  tile's count, and leaves the second output's block as it found it. Every store rewrites a whole block, so what a block
  holds afterwards is the stored value whatever it held before.
-/
import proofs.«117802_j59803124630057_2_alg».proof.Proof.FrameIdeal.Shared
import proofs.«117802_j59803124630057_2_alg».proof.Proof.Gen.KernelIdeal.Skeleton
import proofs.«117802_j59803124630057_2_alg».proof.Proof.LibWholeStore

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runFirst (c : Dev nD) (i : grid0.Coords) (arg2 : Memref sig .tc .vmem S2048x784 .f32) (harg2 : arg2.IsWhole) (arg3 : Memref sig .tc .vmem S784x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x1x100 .f32) (harg8 : arg8.IsWhole) (arg9 : Memref sig .tc .vmem S1x100 .f32) (harg9 : arg9.IsWhole)
    (hc1 : condFirst i) (hc2 : ¬condLater i) (hc3 : ¬condLast i) (x0 : Vec F S2048x784 .f32) (x1 : Vec F S784x100 .f32) (x2 : Vec F S1x100 .f32) (x3 : Vec F S100x10 .f32) (x4 : Vec F S1x10 .f32) (x6 : Vec F S1x1x100 .f32) (xs : Vec F S1x100 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare x6
        ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay1 (k0_pay2 x0 x1 x2) x3 x4)
            ∗ owns (c : Thread nD τ) arg8 fullShare x6
            ∗ owns (c : Thread nD τ) arg9 fullShare (k0_pay4 i x0 x1 x2)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6; obtain rfl := harg9.eq_unread hfs
  have e0 := (Cert.LibWholeStore.readAt_whole arg2.view (harg2.unread x0) z2 inb_S2048x784_S2048x784_0_0).trans hf0
  have e1 := (Cert.LibWholeStore.readAt_whole arg3.view (harg3.unread x1) z2 inb_S784x100_S784x100_0_0).trans hf1
  have e2 := (Cert.LibWholeStore.readAt_whole arg4.view (harg4.unread x2) z2 inb_S1x100_S1x100_0_0).trans hf2
  have e3 := (Cert.LibWholeStore.readAt_whole arg5.view (harg5.unread x3) z2 inb_S100x10_S100x10_0_0).trans hf3
  have e4 := (Cert.LibWholeStore.readAt_whole arg6.view (harg6.unread x4) z2 inb_S1x10_S1x10_0_0).trans hf4
  have es := (Cert.LibWholeStore.readAt_whole arg9.view (harg9.unread xs) z2 inb_S1x100_S1x100_0_0).trans hfs
  sl_exec (disch := first | exact hc1 | exact hc2 | exact hc3)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    exact Cert.LibWholeStore.read_writes_cons_whole _ _ z2 _ _ _
  isplitl [H6]; · iexists _; isplitr; · ipureintro; exact hf6
                  iexact H6
  iexists _; isplitr
  swap; · iexact HS
  ipureintro
  exact Cert.LibWholeStore.read_writes_cons_whole _ _ z2 _ _ _

end Cert.KernelIdeal.Body

end
-- ==== Proof.FrameIdeal.RunMid.lean ====
/-
  The body at an inner step strictly between 0 and 15: as at step 0, except that the running count in the scratch row
  is the PREVIOUS count plus this tile's count.
-/
import proofs.«117802_j59803124630057_2_alg».proof.Proof.FrameIdeal.Shared
import proofs.«117802_j59803124630057_2_alg».proof.Proof.Gen.KernelIdeal.Skeleton
import proofs.«117802_j59803124630057_2_alg».proof.Proof.LibWholeStore

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runMid (c : Dev nD) (i : grid0.Coords) (arg2 : Memref sig .tc .vmem S2048x784 .f32) (harg2 : arg2.IsWhole) (arg3 : Memref sig .tc .vmem S784x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x1x100 .f32) (harg8 : arg8.IsWhole) (arg9 : Memref sig .tc .vmem S1x100 .f32) (harg9 : arg9.IsWhole)
    (hc1 : ¬condFirst i) (hc2 : condLater i) (hc3 : ¬condLast i) (x0 : Vec F S2048x784 .f32) (x1 : Vec F S784x100 .f32) (x2 : Vec F S1x100 .f32) (x3 : Vec F S100x10 .f32) (x4 : Vec F S1x10 .f32) (x6 : Vec F S1x1x100 .f32) (xs : Vec F S1x100 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare x6
        ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay1 (k0_pay2 x0 x1 x2) x3 x4)
            ∗ owns (c : Thread nD τ) arg8 fullShare x6
            ∗ owns (c : Thread nD τ) arg9 fullShare (k0_pay5 i x0 x1 x2 xs)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6; obtain rfl := harg9.eq_unread hfs
  have e0 := (Cert.LibWholeStore.readAt_whole arg2.view (harg2.unread x0) z2 inb_S2048x784_S2048x784_0_0).trans hf0
  have e1 := (Cert.LibWholeStore.readAt_whole arg3.view (harg3.unread x1) z2 inb_S784x100_S784x100_0_0).trans hf1
  have e2 := (Cert.LibWholeStore.readAt_whole arg4.view (harg4.unread x2) z2 inb_S1x100_S1x100_0_0).trans hf2
  have e3 := (Cert.LibWholeStore.readAt_whole arg5.view (harg5.unread x3) z2 inb_S100x10_S100x10_0_0).trans hf3
  have e4 := (Cert.LibWholeStore.readAt_whole arg6.view (harg6.unread x4) z2 inb_S1x10_S1x10_0_0).trans hf4
  have es := (Cert.LibWholeStore.readAt_whole arg9.view (harg9.unread xs) z2 inb_S1x100_S1x100_0_0).trans hfs
  sl_exec (disch := first | exact hc1 | exact hc2 | exact hc3)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    exact Cert.LibWholeStore.read_writes_cons_whole _ _ z2 _ _ _
  isplitl [H6]; · iexists _; isplitr; · ipureintro; exact hf6
                  iexact H6
  iexists _; isplitr
  swap; · iexact HS
  ipureintro
  exact Cert.LibWholeStore.read_writes_cons_whole _ _ z2 _ _ _

end Cert.KernelIdeal.Body

end
-- ==== Proof.FrameIdeal.RunLast.lean ====
/-
  The body at inner step 15: the running count in the scratch row becomes the previous count plus this tile's count,
  and that new count, read back from the scratch row, is copied into the second output's block.
-/
import proofs.«117802_j59803124630057_2_alg».proof.Proof.FrameIdeal.Shared
import proofs.«117802_j59803124630057_2_alg».proof.Proof.Gen.KernelIdeal.Skeleton
import proofs.«117802_j59803124630057_2_alg».proof.Proof.LibWholeStore

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runLast (c : Dev nD) (i : grid0.Coords) (arg2 : Memref sig .tc .vmem S2048x784 .f32) (harg2 : arg2.IsWhole) (arg3 : Memref sig .tc .vmem S784x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x1x100 .f32) (harg8 : arg8.IsWhole) (arg9 : Memref sig .tc .vmem S1x100 .f32) (harg9 : arg9.IsWhole)
    (hc1 : ¬condFirst i) (hc2 : condLater i) (hc3 : condLast i) (x0 : Vec F S2048x784 .f32) (x1 : Vec F S784x100 .f32) (x2 : Vec F S1x100 .f32) (x3 : Vec F S100x10 .f32) (x4 : Vec F S1x10 .f32) (xs : Vec F S1x100 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay1 (k0_pay2 x0 x1 x2) x3 x4)
            ∗ owns (c : Thread nD τ) arg8 fullShare (k0_pay6 (k0_pay5 i x0 x1 x2 xs))
            ∗ owns (c : Thread nD τ) arg9 fullShare (k0_pay5 i x0 x1 x2 xs)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg9.eq_unread hfs
  have e0 := (Cert.LibWholeStore.readAt_whole arg2.view (harg2.unread x0) z2 inb_S2048x784_S2048x784_0_0).trans hf0
  have e1 := (Cert.LibWholeStore.readAt_whole arg3.view (harg3.unread x1) z2 inb_S784x100_S784x100_0_0).trans hf1
  have e2 := (Cert.LibWholeStore.readAt_whole arg4.view (harg4.unread x2) z2 inb_S1x100_S1x100_0_0).trans hf2
  have e3 := (Cert.LibWholeStore.readAt_whole arg5.view (harg5.unread x3) z2 inb_S100x10_S100x10_0_0).trans hf3
  have e4 := (Cert.LibWholeStore.readAt_whole arg6.view (harg6.unread x4) z2 inb_S1x10_S1x10_0_0).trans hf4
  have es := (Cert.LibWholeStore.readAt_whole arg9.view (harg9.unread xs) z2 inb_S1x100_S1x100_0_0).trans hfs
  sl_exec (disch := first | exact hc1 | exact hc2 | exact hc3)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    exact Cert.LibWholeStore.read_writes_cons_whole _ _ z2 _ _ _
  isplitl [H6]
  · iexists _; isplitr
    swap; · iexact H6
    ipureintro
    sl_unfold_words
    rw [Cert.LibWholeStore.read_writes_cons_whole _ _ z3 _ _ _, View.readCov_unit_zero _ z2]
  iexists _; isplitr
  swap; · iexact HS
  ipureintro
  sl_unfold_words
  exact Cert.LibWholeStore.read_writes_cons_whole _ _ z2 _ _ _

end Cert.KernelIdeal.Body

end
-- ==== Proof.FrameIdeal.Frame.lean ====
/-
  The frame of the idealized kernel: every weakly fair run of the program ends, faults nowhere, and leaves the six
  argument arrays as they were.

  The proof data say what each staging block holds after the body at each of the 32 points. The five inputs' blocks
  are left in place. The first output's block holds the tile's class probabilities. The scratch row is carried from
  point to point: `scrAt n` is its contents after point `n` — this tile's count at inner step 0, the previous
  contents plus this tile's count at every other step — and the invariant before point `n + 1` holds the scratch row
  at `scrAt n`. The second output's block holds the scratch row's contents at inner step 15, where it is written
  back; at the other points the body leaves it alone and it is not written back.
-/
import proofs.«117802_j59803124630057_2_alg».proof.Proof.FrameIdeal.RunFirst
import proofs.«117802_j59803124630057_2_alg».proof.Proof.FrameIdeal.RunMid
import proofs.«117802_j59803124630057_2_alg».proof.Proof.FrameIdeal.RunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch row and the outputs' blocks hold after each point -/

/-- The scratch row after position `n`: overwritten with the tile's count at inner step 0, added to otherwise. -/
def scrAt (c : Dev nD) : (n : ℕ) → n < cfg0.N → Vec F S1x100 .f32
  | 0, hn => k0_pay4 (grid0.coords ⟨0, hn⟩) (iblk m c 0 ⟨0, hn⟩) (iblk m c 1 ⟨0, hn⟩) (iblk m c 2 ⟨0, hn⟩)
  | n + 1, hn =>
    if (n + 1) % 16 = 0 then k0_pay4 (grid0.coords ⟨n + 1, hn⟩) (iblk m c 0 ⟨n + 1, hn⟩) (iblk m c 1 ⟨n + 1, hn⟩) (iblk m c 2 ⟨n + 1, hn⟩)
    else k0_pay5 (grid0.coords ⟨n + 1, hn⟩) (iblk m c 0 ⟨n + 1, hn⟩) (iblk m c 1 ⟨n + 1, hn⟩) (iblk m c 2 ⟨n + 1, hn⟩) (scrAt c n (Nat.lt_of_succ_lt hn))

theorem scrAt_first (c : Dev nD) (t : Fin cfg0.N) (h0 : t.val % 16 = 0) :
    scrAt m c t.val t.isLt = k0_pay4 (grid0.coords t) (iblk m c 0 t) (iblk m c 1 t) (iblk m c 2 t) := by
  obtain ⟨n, hn⟩ := t
  cases n with
  | zero => rfl
  | succ n => exact if_pos h0

theorem scrAt_later (c : Dev nD) (t : Fin cfg0.N) (h0 : ¬t.val % 16 = 0) :
    scrAt m c t.val t.isLt = k0_pay5 (grid0.coords t) (iblk m c 0 t) (iblk m c 1 t) (iblk m c 2 t)
      (scrAt m c (t.val - 1) (Nat.lt_of_le_of_lt (Nat.sub_le _ _) t.isLt)) := by
  obtain ⟨n, hn⟩ := t
  cases n with
  | zero => exact absurd (Nat.zero_mod _) h0
  | succ n => exact if_neg h0

/-- The first output's block after point `t`: the class probabilities of the tile's rows. -/
def probsAt (c : Dev nD) (t : Fin cfg0.N) : Vec F S2048x10 .f32 :=
  k0_pay1 (k0_pay2 (iblk m c 0 t) (iblk m c 1 t) (iblk m c 2 t)) (iblk m c 3 t) (iblk m c 4 t)

/-- The second output's block after a point where the body stores into it: the scratch row, as a [1,1,100] block. -/
def countAt (c : Dev nD) (t : Fin cfg0.N) : Vec F S1x1x100 .f32 := k0_pay6 (scrAt m c t.val t.isLt)

/-- The region's invariant before position `n`: at the start the scratch row at anything; afterwards at what the
    point before left in it; the generator register at some state. -/
def PhiS (c : Dev nD) : (n : ℕ) → n ≤ cfg0.N → sProp 𝕄
  | 0, _ => Pipeline.ΦA spec0 c
  | n + 1, hn => iprop(iprop(owns (c : Thread nD τ) scM fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scrAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => probsAt m c t
    | ⟨6, _⟩ => countAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = probsAt m c t := by dsimp only [dats]
theorem after6 (c : Dev nD) (t : Fin cfg0.N) : (dats m 0 c).after 6 t = countAt m c t := by dsimp only [dats]

/-- Each input's current staging block holds its block of the array at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (probsAt m c t) := by
  unfold Dat.leavesExact; rw [live5 t, after5]
theorem leaves6_live (c : Dev nD) (t : Fin cfg0.N) (h : condLast (grid0.coords t)) :
    (dats m 0 c).leavesExact 6 t = owns (c : Thread nD τ) (ms6 t) fullShare (countAt m c t) := by
  unfold Dat.leavesExact; rw [live6 t h, after6]

set_option maxHeartbeats 4800000 in
/-- The body at any point: the inputs' memrefs hold their blocks; the inner coordinate says which of the three cases
    the point is in; the invariant hands the body the scratch row at what the point before left (at anything at the
    very first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  have hN : t.val < 32 := lt_of_lt_of_eq t.isLt (show cfg0.N = 32 from N_0)
  unfold probsAt
  by_cases h0 : t.val % 16 = 0
  · have hc1 : condFirst (grid0.coords t) := (hcondFirst t).mpr h0
    have hc2 : ¬condLater (grid0.coords t) := fun h => ((hcondLater t).mp h) h0
    have hc3 : ¬condLast (grid0.coords t) := fun h => by have := (hcondLast t).mp h; omega
    rw [Dat.leavesExact_idle (dats m 0 c) 6 t (idle6 t hc3) (noFlush6 t hc3)]
    rw [scrAt_first m c t h0]
    by_cases hz : t.val = 0
    · rw [PhiS_castSucc m c t, PhiS_zero m c _ _ hz, PhiA_eq]
      · iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
        iapply (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc1 hc2 hc3
          (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS]; · iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · rw [PhiS_castSucc m c t, PhiS_pos m c _ _ hz]
      · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc1 hc2 hc3
          (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS]; · iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hc1 : ¬condFirst (grid0.coords t) := fun h => h0 ((hcondFirst t).mp h)
    have hc2 : condLater (grid0.coords t) := (hcondLater t).mpr h0
    have hz : t.val ≠ 0 := fun h => h0 (by rw [h])
    rw [scrAt_later m c t h0]
    rw [PhiS_castSucc m c t, PhiS_pos m c _ _ hz]
    by_cases h15 : t.val % 16 = 15
    · have hc3 : condLast (grid0.coords t) := (hcondLast t).mpr h15
      rw [leaves6_live m c t hc3]
      unfold countAt
      rw [scrAt_later m c t h0]
      · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply (runLast c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc1 hc2 hc3
          (iblk m c 0 t) (iblk m c 1 t) (iblk m c 2 t) (iblk m c 3 t) (iblk m c 4 t) _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS]; · iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · have hc3 : ¬condLast (grid0.coords t) := fun h => h15 ((hcondLast t).mp h)
      rw [Dat.leavesExact_idle (dats m 0 c) 6 t (idle6 t hc3) (noFlush6 t hc3)]
      · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply (runMid c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc1 hc2 hc3
          (iblk m c 0 t) (iblk m c 1 t) (iblk m c 2 t) (iblk m c 3 t) (iblk m c 4 t) _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS]; · iexact HS
        iintro ⟨H0, H1, H2, H3, H4, H5, H6, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has each array of the pipeline at
    what the proof data compute and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
/-
  What both programs compute, as functions of the flattened input `xf` (65536 rows of 784 pixels), the two layers'
  weights and biases, and the running frequency vector — stated once, index by index, over the extended reals.

  A row `r` is sent to the hidden vector `hid r k = max (Σ_j xf(r,j) · W1(j,k) + b1(k)) 0` (100 units, rectified).
  The class scores of the row are the softmax of `logit r o = Σ_k hid r k · W2(k,o) + b2(o)` over the 10 classes,
  taken stably: the row's maximum `rowMax r` (never below the least extended real) is subtracted before the
  exponential, and each exponential is divided by the row's sum of exponentials.
  The frequency vector gains, at unit `k`, the number of rows AMONG THE FIRST 65535 whose unit `k` is active
  (`ind`: one when the hidden value is strictly positive, zero otherwise); the last row is left out of the count.
-/
import Idealize.ShloMosaic.PureOps.Ideal
import Idealize.ShloMosaic.Lib.ValueIdx

noncomputable section

open scoped BigOperators

namespace Cert.Mlp

open Idealize.ShloMosaic Idealize.ShloMosaic.ValueIdx

/-- Arrays at the ideal values: an extended real per index of a literal shape. -/
abbrev Arr (s : Shape) : Type := s.Idx → EReal

abbrev SX : Shape := ⟨2, ![65536, 784]⟩
abbrev SW1 : Shape := ⟨2, ![784, 100]⟩
abbrev SB1 : Shape := ⟨1, ![100]⟩
abbrev SW2 : Shape := ⟨2, ![100, 10]⟩
abbrev SB2 : Shape := ⟨1, ![10]⟩
abbrev SOut : Shape := ⟨2, ![65536, 10]⟩

/-- The least extended real, as the word both programs start their row maximum from. -/
def ninf : EReal := Ideal.ofBits .f32 0xFF800000#32

/-- Hidden unit `k` of row `r`: the affine map of the row, rectified. -/
def hid (xf : Arr SX) (W1 : Arr SW1) (b1 : Arr SB1) (r : Fin 65536) (k : Fin 100) : EReal :=
  max ((∑ j : Fin 784, xf (ix2 r j) * W1 (ix2 j k)) + b1 (ix1 k)) 0

/-- One when the value is strictly positive, zero otherwise (the comparison's one-bit answer read as a number). -/
def ind (h : EReal) : EReal := if Ideal.cmp .ogt h 0 = 1#1 then 1 else 0

/-- How many of the first 65535 rows have unit `k` active. -/
def activeCount (xf : Arr SX) (W1 : Arr SW1) (b1 : Arr SB1) (k : Fin 100) : EReal :=
  ∑ r : Fin 65535, ind (hid xf W1 b1 r.castSucc k)

/-- The updated frequency vector. -/
def newFreq (xf : Arr SX) (W1 : Arr SW1) (b1 freq : Arr SB1) : Arr SB1 :=
  fun i => freq (ix1 (i 0)) + activeCount xf W1 b1 (i 0)

/-- Class `o`'s score of row `r` before the softmax. -/
def logit (xf : Arr SX) (W1 : Arr SW1) (b1 : Arr SB1) (W2 : Arr SW2) (b2 : Arr SB2) (r : Fin 65536) (o : Fin 10) : EReal :=
  (∑ k : Fin 100, hid xf W1 b1 r k * W2 (ix2 k o)) + b2 (ix1 o)

/-- The row's largest score, never below the least extended real. -/
def rowMax (xf : Arr SX) (W1 : Arr SW1) (b1 : Arr SB1) (W2 : Arr SW2) (b2 : Arr SB2) (r : Fin 65536) : EReal :=
  max ninf (Finset.univ.fold max ninf (fun o : Fin 10 => logit xf W1 b1 W2 b2 r o))

/-- The shifted exponential of a score. -/
def shiftedExp (xf : Arr SX) (W1 : Arr SW1) (b1 : Arr SB1) (W2 : Arr SW2) (b2 : Arr SB2) (r : Fin 65536) (o : Fin 10) : EReal :=
  Ideal.exp (logit xf W1 b1 W2 b2 r o - rowMax xf W1 b1 W2 b2 r)

/-- The class probabilities: each row's shifted exponentials over their sum. -/
def probs (xf : Arr SX) (W1 : Arr SW1) (b1 : Arr SB1) (W2 : Arr SW2) (b2 : Arr SB2) : Arr SOut :=
  fun i => Ideal.div (shiftedExp xf W1 b1 W2 b2 (i 0) (i 1)) (∑ o : Fin 10, shiftedExp xf W1 b1 W2 b2 (i 0) o)

end Cert.Mlp

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibAxisFold.lean ====
/-
  Reductions of a matrix along one axis, read at an index.

  At the ideal instance a float is an extended real and a reduction is the exact fold in any order. For an `[a, b]`
  matrix: the sum of row `p` (a kernel's `vector.multi_reduction <add>` over axis 1) and of column `q` (over axis 0)
  are the sums of that row's, that column's, entries; the smallest entry of row `p` (`<minimumf>` over axis 1) and of
  column `q` (over axis 0) are the fold of `min` from the value of the word of `+∞` over those entries. The index facts
  under them: over row `p` the index with column `k` put back is `(p, k)`, over column `q` the index with row `k` put
  back is `(k, q)`. Each reduction's accumulator is the word a program writes for it (the zero word, the word of `+∞`),
  and the hypothesis about it is the reflexive equation of that word.
-/
import Idealize.ShloMosaic.Lib.IdealHost

namespace Cert.LibAxisFold

open Idealize.ShloMosaic Idealize.ShloMosaic.ValueIdx

variable {a b : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- Over column `q` of an `[a, b]` array, the index whose dropped (row) coordinate is `k` is `(k, q)`. -/
theorem lift_col (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- A kernel's f32 minimum along the columns started from the word of `+∞`, read at row `p`: the fold of `min` from
    that word's value over the row's entries. -/
theorem laneMin_row (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p)
      = (Finset.univ : Finset (Fin b)).fold min (Ideal.ofBits .f32 0x7F800000#32) fun k => v (ix2 p k) := by
  refine (multiReduction_minimumf_eq_fold v 0x7F800000#32 h hφ hacc (ix1 p)).trans ?_
  refine (h.fold_filter_drop_single _ _ v (ix1 p)).trans ?_
  exact congrArg (fun f => Finset.fold min (Ideal.ofBits .f32 0x7F800000#32) f (Finset.univ : Finset (Fin b)))
    (funext fun k => congrArg v (lift_row h p k))

/-- A kernel's f32 minimum down the rows started from the word of `+∞`, read at column `q`: the fold of `min` from
    that word's value over the column's entries. -/
theorem sublaneMin_col (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q)
      = (Finset.univ : Finset (Fin a)).fold min (Ideal.ofBits .f32 0x7F800000#32) fun k => v (ix2 k q) := by
  refine (multiReduction_minimumf_eq_fold v 0x7F800000#32 h hφ hacc (ix1 q)).trans ?_
  refine (h.fold_filter_drop_single _ _ v (ix1 q)).trans ?_
  exact congrArg (fun f => Finset.fold min (Ideal.ofBits .f32 0x7F800000#32) f (Finset.univ : Finset (Fin a)))
    (funext fun k => congrArg v (lift_col h q k))

/-- A kernel's f32 sum along the columns started from the zero word, read at row `p`: the sum of the row's entries. -/
theorem laneSum_row (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A kernel's f32 sum down the rows started from the zero word, read at column `q`: the sum of the column's entries. -/
theorem sublaneSum_col (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

end Cert.LibAxisFold
-- ==== Proof.PayloadAt.lean ====
/-
  The kernel body's arithmetic, read at an index.

  Each payload of the kernel body's first part is a pure term over the vectors it loads. At the ideal instance a float
  is an extended real, a change of format is the identity, a matrix product into the zero accumulator is the plain sum of
  products, and a reduction is the exact fold. Read at one index, the payloads are:

  * the hidden activation: the affine map of the row, rectified;
  * the per-step partial count: the number of the step's 2048 rows whose hidden unit is active, less the last row's
    indicator on the one grid step that holds the overall last row;
  * three re-shapings that move no value.
-/
import proofs.«117802_j59803124630057_2_alg».proof.Proof.Gen.KernelIdeal.Skeleton
import proofs.«117802_j59803124630057_2_alg».proof.Proof.Spec
import proofs.«117802_j59803124630057_2_alg».proof.Proof.LibMatmulAt
import proofs.«117802_j59803124630057_2_alg».proof.Proof.LibAxisFold
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp.Pay

open Idealize.ShloMosaic Idealize.ShloMosaic.ValueIdx
open Cert.KernelIdeal Cert.KernelIdeal.Gen

variable [Cert.KernelIdeal.Facts]

/-! ## The first layer's contraction: where the operand indices sit

The product contracts the left operand's second axis with the right operand's first and has no batch axes: the left
index reads the result's row and the contraction position, the right one the contraction position and the result's
column. Each fact is read off the record's two membership tests. -/

/-- The first layer's contraction: [2048, 784] by [784, 100]. -/
abbrev dotA := dot_S2048x784_S784x100_S2048x100_1_0_0_1_n_n

theorem dotA_rank : dotA.contr.rank = 1 := rfl
theorem dotA_size : dotA.contr.size ⟨0, by rw [dotA_rank]; omega⟩ = 784 := rfl

theorem dotA_l0 (i : S2048x100.Idx) (k : dotA.contr.Idx) : (dotA.lhsIdx i k (0 : Fin 2)).val = (i (0 : Fin 2)).val := by
  unfold DotDims.lhsIdx
  rw [dif_neg (by decide), dif_pos (by decide)]
  rfl

theorem dotA_l1 (i : S2048x100.Idx) (k : dotA.contr.Idx) :
    (dotA.lhsIdx i k (1 : Fin 2)).val = (k ⟨0, by rw [dotA_rank]; omega⟩).val := by
  unfold DotDims.lhsIdx
  rw [dif_neg (by decide), dif_neg (by decide)]
  rfl

theorem dotA_r0 (i : S2048x100.Idx) (k : dotA.contr.Idx) :
    (dotA.rhsIdx i k (0 : Fin 2)).val = (k ⟨0, by rw [dotA_rank]; omega⟩).val := by
  unfold DotDims.rhsIdx
  rw [dif_neg (by decide), dif_neg (by decide)]
  rfl

theorem dotA_r1 (i : S2048x100.Idx) (k : dotA.contr.Idx) : (dotA.rhsIdx i k (1 : Fin 2)).val = (i (1 : Fin 2)).val := by
  unfold DotDims.rhsIdx
  rw [dif_neg (by decide), dif_pos (by decide)]
  rfl

/-- The first layer's product into the zero accumulator, read at `(p, q)`. -/
theorem matmulA_at (l : FVec Ideal S2048x784 .bf16) (r : FVec Ideal S784x100 .bf16) (p : Fin 2048) (q : Fin 100) :
    matmul dotA none l r (constant S2048x100 .f32 0x00000000#32) (ix2 p q) = ∑ j : Fin 784, l (ix2 p j) * r (ix2 j q) :=
  MatmulAt.matmul_zero_ix2 (a := 2048) (n := 784) (b := 100) dotA dotA_rank dotA_size dotA_l0 dotA_l1 dotA_r0 dotA_r1
    none l r p q

/-! ## The hidden activation -/

/-- The hidden activation at row `p`, unit `q`: the affine map of the row, rectified. The two roundings to the
    matrix unit's format are the identity, the product into the zero accumulator is the plain sum, the bias row is
    repeated down the rows, and the compared zero word is the number zero. -/
theorem hidden_at (v0 : Vec Ideal S2048x784 .f32) (v3 : Vec Ideal S784x100 .f32) (v6 : Vec Ideal S1x100 .f32)
    (p : Fin 2048) (q : Fin 100) :
    k0_pay2 (F := Ideal) v0 v3 v6 (ix2 p q)
      = max ((∑ j : Fin 784, v0 (ix2 p j) * v3 (ix2 j q)) + v6 (ix2 0 q)) 0 := by
  unfold k0_pay2
  refine congrArg₂ max (congrArg₂ (· + ·) ?_ ?_) Ideal.ofBits_zero_f32
  · refine (matmulA_at _ _ p q).trans ?_
    refine Finset.sum_congr rfl fun j _ => ?_
    exact congrArg (· * v3 (ix2 j q)) (congrFun (shapeCast_self v0 _) (ix2 p j))
  · refine (broadcastTo_1b_ab_apply _ _ p q).trans ?_
    exact congrFun (shapeCast_self v6 _) (ix2 0 q)

/-! ## The re-shapings that move no value -/

/-- A cast of the partial count to its own shape is the partial count. -/
theorem pay4_eq (i : grid0.Coords) (v0 : Vec Ideal S2048x784 .f32) (v3 : Vec Ideal S784x100 .f32)
    (v6 : Vec Ideal S1x100 .f32) :
    k0_pay4 (F := Ideal) i v0 v3 v6 = k0_pay3 (F := Ideal) i v0 v3 v6 := by
  unfold k0_pay4
  exact shapeCast_self _ _

/-- The running count plus the step's partial count, cast to its own shape, read at an index. -/
theorem pay5_at (i : grid0.Coords) (v0 : Vec Ideal S2048x784 .f32) (v3 : Vec Ideal S784x100 .f32)
    (v6 : Vec Ideal S1x100 .f32) (v54 : Vec Ideal S1x100 .f32) (y : S1x100.Idx) :
    k0_pay5 (F := Ideal) i v0 v3 v6 v54 y = v54 y + k0_pay3 (F := Ideal) i v0 v3 v6 y := by
  unfold k0_pay5
  exact congrFun (shapeCast_self _ _) y

/-- The one row of counts given a leading unit axis reads, at `(0, 0, q)`, the row at `(0, q)`. -/
theorem pay6_at (v54 : Vec Ideal S1x100 .f32) (q : Fin 100) :
    k0_pay6 (F := Ideal) v54 (ix3 0 0 q) = v54 (ix2 0 q) := by
  unfold k0_pay6
  exact shapeCast_ab_1ab_apply v54 _ 0 0 q

/-! ## The step's partial count -/

/-- The comparison's one-bit answer, widened to a word and read as a signed integer, is the indicator: one when the
    value is strictly positive, zero otherwise. The compared zero word is the number zero. -/
theorem ind_eq (h : EReal) :
    FloatOps.sitofp (F := Ideal) .f32 (BitVec.setWidth 32 (Ideal.cmp .ogt h (Ideal.ofBits .f32 0x00000000#32)))
      = Cert.Mlp.ind h := by
  rw [Ideal.ofBits_zero_f32]
  unfold Cert.Mlp.ind
  by_cases hb : Ideal.cmp .ogt h 0 = 1#1
  · rw [if_pos hb, hb]
    show (((BitVec.setWidth 32 1#1).toInt : ℝ) : EReal) = 1
    have e : (BitVec.setWidth 32 1#1).toInt = 1 := by decide
    rw [e]; simp
  · rw [if_neg hb, eq_zero_of_ne_one hb]
    show (((BitVec.setWidth 32 0#1).toInt : ℝ) : EReal) = 0
    have e : (BitVec.setWidth 32 0#1).toInt = 0 := by decide
    rw [e]; simp

/-- The correction's one-bit condition holds exactly on the grid step `(1, 15)`: both coordinates are small enough
    to be read back from their words. -/
theorem cond_iff (a : Fin 2) (b : Fin 16) :
    Scalar.andi (Scalar.cmpi .eq (BitVec.ofNat 32 a.val) 1#32) (Scalar.cmpi .eq (BitVec.ofNat 32 b.val) 15#32) = 1#1
      ↔ (a.val = 1 ∧ b.val = 15) := by
  revert a b; decide

/-- A selection between two vectors on one bit, read at an index. -/
theorem select_at {α : Type} {s : Shape} (c : BitVec 1) (a b : s.Idx → α) (y : s.Idx) :
    Scalar.select c a b y = if c = 1#1 then a y else b y := by
  by_cases hc : c = 1#1
  · rw [if_pos hc]; exact congrFun (if_pos hc) y
  · rw [if_neg hc]; exact congrFun (if_neg hc) y

/-- The step's partial count at unit `q`: the number of the step's 2048 rows whose hidden unit is active, less the
    last row's indicator on the grid step `(1, 15)`, the one step whose last row is the overall last row. -/
theorem partial_at (i : grid0.Coords) (v0 : Vec Ideal S2048x784 .f32) (v3 : Vec Ideal S784x100 .f32)
    (v6 : Vec Ideal S1x100 .f32) (q : Fin 100) :
    k0_pay3 (F := Ideal) i v0 v3 v6 (ix2 0 q)
      = (∑ p : Fin 2048, Cert.Mlp.ind (k0_pay2 (F := Ideal) v0 v3 v6 (ix2 p q)))
        - (if (i 0).val = 1 ∧ (i 1).val = 15 then
            Cert.Mlp.ind (k0_pay2 (F := Ideal) v0 v3 v6 (ix2 (2047 : Fin 2048) q)) else 0) := by
  unfold k0_pay3
  refine congrArg₂ (· - ·) ?_ ?_
  · refine (shapeCast_a_1a_apply _ _ 0 q).trans ?_
    refine (LibAxisFold.sublaneSum_col _ _ _ _ q).trans ?_
    exact Finset.sum_congr rfl fun p _ => ind_eq _
  · refine (select_at _ _ _ _).trans ?_
    refine if_congr (cond_iff (i 0) (i 1)) ?_ ?_
    · exact (slice2_axis0_apply 2047 _ _ 0 q 2047 rfl).trans (ind_eq _)
    · exact Ideal.ofBits_zero_f32

end Cert.Mlp.Pay

end
-- ==== Proof.ValueAcc.lean ====
/-
  The running count. Within one half of the batch (outer coordinate `h`) the scratch row is overwritten with the
  first tile's count at inner step 0 and gains the next tile's count at every later step, so after inner step `i` it
  holds the sum of the counts of tiles 0 … i of that half — entry by entry, in any commutative monoid; here on the
  extended reals. Nothing is assumed about the counts themselves.
-/
import proofs.«117802_j59803124630057_2_alg».proof.Proof.FrameIdeal.Frame
import proofs.«117802_j59803124630057_2_alg».proof.Proof.PayloadAt

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body

variable (m : (ℓ : Loc nD τ sig) → Buf (Elt Ideal) ℓ) (ρ : Dev nD → PrngReg)

/-- A position below 32 is a point of the grid. -/
theorem lt32 {n : ℕ} (h : n < 32) : n < cfg0.N := lt_of_lt_of_eq h N_0.symm

/-- Point `n` of the grid, for `n < 32`. -/
abbrev pt (n : ℕ) (h : n < 32) : Fin cfg0.N := ⟨n, lt32 h⟩

/-- The count of the tile the kernel sees at point `t`: one entry per hidden unit. -/
def tileCount (c : Dev nD) (t : Fin cfg0.N) : Vec Ideal S1x100 .f32 :=
  k0_pay3 (F := Ideal) (grid0.coords t) (iblk m c 0 t) (iblk m c 1 t) (iblk m c 2 t)

/-- After inner step `i` of half `h` the scratch row holds the sum of the counts of that half's tiles 0 … i. -/
theorem scr_sum (c : Dev nD) (h : Fin 2) (k : Fin 100) :
    ∀ (i : ℕ) (hi : i < 16),
      scrAt m c (h.val * 16 + i) (lt32 (by have := h.isLt; omega)) (ix2 0 k)
        = ∑ i' : Fin (i + 1), tileCount m c (pt (h.val * 16 + i'.val) (by have := h.isLt; have := i'.isLt; omega)) (ix2 0 k) := by
  intro i
  induction i with
  | zero =>
    intro hi
    have e := scrAt_first m c (pt (h.val * 16 + 0) (by have := h.isLt; omega)) (by show (h.val * 16 + 0) % 16 = 0; omega)
    rw [show scrAt m c (h.val * 16 + 0) _ = scrAt m c (pt (h.val * 16 + 0) (by have := h.isLt; omega)).val (pt (h.val * 16 + 0) (by have := h.isLt; omega)).isLt from rfl, e,
      Cert.Mlp.Pay.pay4_eq, Fin.sum_univ_one]
    rfl
  | succ i ih =>
    intro hi
    have e := scrAt_later m c (pt (h.val * 16 + (i + 1)) (by have := h.isLt; omega)) (by show ¬(h.val * 16 + (i + 1)) % 16 = 0; omega)
    rw [show scrAt m c (h.val * 16 + (i + 1)) _ = scrAt m c (pt (h.val * 16 + (i + 1)) (by have := h.isLt; omega)).val (pt (h.val * 16 + (i + 1)) (by have := h.isLt; omega)).isLt from rfl, e,
      Cert.Mlp.Pay.pay5_at, Fin.sum_univ_castSucc]
    refine congrArg₂ (· + ·) ?_ rfl
    exact ih (by omega)

end Cert.KernelIdeal.Val

end
-- ==== Proof.LibRowMax.lean ====
/-
  The largest entry along the last axis, read at an index.

  At the ideal instance a float is an extended real and a maximum is the exact fold of `max` in any order. For an
  `[a, b]` matrix, a kernel's `vector.multi_reduction <maximumf>` over axis 1 started from the word of `-∞`, read at row
  `p`, is the fold of `max` from that word's value over the row's entries (`laneMax_row`). For an `[a, b, c]` array,
  the host's `reduce` with a `maximum` body over axis 2, read at `(p, q)`, is the fold of `max` from the initial value
  over the entries `(p, q, k)` (`hostMax_last3`); `lift_last3` is the index fact under it: over `(p, q)` the index
  with the dropped last coordinate `k` put back is `(p, q, k)`.
-/
import Idealize.ShloMosaic.Lib.IdealHost

namespace Cert.LibRowMax

open Idealize.ShloMosaic Idealize.ShloMosaic.ValueIdx

variable {a b c : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-- A kernel's f32 maximum along the columns started from the word of `-∞`, read at row `p`: the fold of `max` from
    that word's value over the row's entries. -/
theorem laneMax_row (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) fun k => v (ix2 p k) := by
  refine (multiReduction_maximumf_eq_fold v 0xFF800000#32 h hφ hacc (ix1 p)).trans ?_
  refine (h.fold_filter_drop_single _ _ v (ix1 p)).trans ?_
  exact congrArg (fun f => Finset.fold max (Ideal.ofBits .f32 0xFF800000#32) f (Finset.univ : Finset (Fin b)))
    (funext fun k => congrArg v (lift_row h p k))

/-- Over `(p, q)` of an `[a, b, c]` array reduced along its last axis, the index whose dropped coordinate is `k`
    is `(p, q, k)`. -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- The host's `reduce` with a `maximum` body along the last axis of an `[a, b, c]` array, read at `(p, q)`: the
    fold of `max` from the initial value over the entries `(p, q, k)`. -/
theorem hostMax_last3 {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) fun k => x (ix3 p q k) := by
  refine (Host.reduce_eq_fold_single (FloatOps.maximumf (F := Ideal) (φ := .f32)) x init h' h hu (ix2 p q)).trans ?_
  exact congrArg (fun f => Finset.fold max (init (Shape.Idx.first hu)) f (Finset.univ : Finset (Fin c)))
    (funext fun k => congrArg x (lift_last3 h p q k))

end Cert.LibRowMax
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.PayloadProbs.lean ====
/-
  The kernel's softmax payload of one tile, read at an entry.

  For a tile of 2048 rows of hidden values `h`, the second layer's weights `W` and its bias row `b`, the payload is,
  at row `p` and class `o`, the stable softmax of the row's scores `lg o' = Σ_k h(p,k) · W(k,o') + b(0,o')`: the
  exponential of `lg o` minus the row's top score, over the sum of those exponentials. The top score is the largest
  score of the row, never below the least extended real (the row maximum is started from that value, and taken once
  more against it). The changes of format in front of the product are the identity on extended reals.
-/
import proofs.«117802_j59803124630057_2_alg».proof.Proof.Gen.KernelIdeal.Skeleton
import proofs.«117802_j59803124630057_2_alg».proof.Proof.Spec
import proofs.«117802_j59803124630057_2_alg».proof.Proof.LibMatmulAt
import proofs.«117802_j59803124630057_2_alg».proof.Proof.LibAxisFold
import proofs.«117802_j59803124630057_2_alg».proof.Proof.LibRowMax
import proofs.«117802_j59803124630057_2_alg».proof.Proof.LibColBroadcast
import proofs.«117802_j59803124630057_2_alg».proof.Proof.LibColumnCast
import Idealize.ShloMosaic.Lib.ValueLayout

noncomputable section

open scoped BigOperators

namespace Cert.Mlp.Pay

open Cert.KernelIdeal Cert.KernelIdeal.Gen Idealize.ShloMosaic Idealize.ShloMosaic.ValueIdx

/-- The score of class `o` of row `p` of the tile. -/
def rowLogit (v11 : FVec Ideal S2048x100 .f32) (v34 : Vec Ideal S100x10 .f32) (v38 : Vec Ideal S1x10 .f32)
    (p : Fin 2048) (o : Fin 10) : EReal :=
  (∑ k : Fin 100, v11 (ix2 p k) * v34 (ix2 k o)) + v38 (ix2 0 o)

/-- The top score of row `p` of the tile, never below the least extended real. -/
def rowTop (v11 : FVec Ideal S2048x100 .f32) (v34 : Vec Ideal S100x10 .f32) (v38 : Vec Ideal S1x10 .f32)
    (p : Fin 2048) : EReal :=
  max Cert.Mlp.ninf (Finset.univ.fold max Cert.Mlp.ninf (rowLogit v11 v34 v38 p))

/-- The tile's scores as the kernel forms them: the product into the zero accumulator plus the bias row repeated. -/
def scores (v11 : FVec Ideal S2048x100 .f32) (v34 : Vec Ideal S100x10 .f32) (v38 : Vec Ideal S1x10 .f32) :
    FVec Ideal S2048x10 .f32 :=
  addf (matmul dot_S2048x100_S100x10_S2048x10_1_0_0_1_n_n none (truncf .bf16 v11 bitsLt_bf16_f32)
      (truncf .bf16 v34 bitsLt_bf16_f32) (constant S2048x10 .f32 0x00000000#32))
    (broadcastTo S2048x10 (shapeCast S1x10 v38 shapeCasts_S1x10_S1x10) broadcasts_S1x10_S2048x10)

/-- A vector of 2048 row values stood up as a column and repeated over the 10 classes. -/
def spread (w : FVec Ideal S2048 .f32) : FVec Ideal S2048x10 .f32 :=
  broadcastTo S2048x10 (shapeCast S2048x1 w shapeCasts_S2048_S2048x1) broadcasts_S2048x1_S2048x10

/-- The rows' top scores as the kernel forms them. -/
def tops (s : FVec Ideal S2048x10 .f32) : FVec Ideal S2048 .f32 :=
  maximumf (broadcast S2048 (Scalar.ofBits .f32 0xFF800000#32))
    (multiReduction .maximumf [1] S2048 s 0xFF800000#32 reduces_S2048x10_S2048 (.inl rfl) rfl)

/-- The shifted exponentials of the scores. -/
def shifted (s : FVec Ideal S2048x10 .f32) : FVec Ideal S2048x10 .f32 :=
  exp (subf s (spread (tops s)))

/-- The softmax of the scores as the kernel forms it. -/
def softmaxOf (s : FVec Ideal S2048x10 .f32) : FVec Ideal S2048x10 .f32 :=
  divf (shifted s)
    (spread (multiReduction .add [1] S2048 (shifted s) 0x00000000#32 reduces_S2048x10_S2048 (.inl rfl) rfl))

/-- The payload is the softmax of the scores. -/
theorem pay1_eq (v11 : FVec Ideal S2048x100 .f32) (v34 : Vec Ideal S100x10 .f32) (v38 : Vec Ideal S1x10 .f32) :
    k0_pay1 (F := Ideal) v11 v34 v38 = softmaxOf (scores v11 v34 v38) := rfl

/-- A spread vector reads its row's value at every class. -/
theorem spread_at (w : FVec Ideal S2048 .f32) (p : Fin 2048) (o : Fin 10) : spread w (ix2 p o) = w (ix1 p) :=
  (Cert.LibColBroadcast.broadcastTo_a1_ab_apply _ broadcasts_S2048x1_S2048x10 p o).trans
    (Cert.LibColumnCast.shapeCast_a_a1_apply w shapeCasts_S2048_S2048x1 p (0 : Fin 1))

/-- The scores at an entry. -/
theorem scores_at (v11 : FVec Ideal S2048x100 .f32) (v34 : Vec Ideal S100x10 .f32) (v38 : Vec Ideal S1x10 .f32)
    (p : Fin 2048) (o : Fin 10) : scores v11 v34 v38 (ix2 p o) = rowLogit v11 v34 v38 p o := by
  have hm : matmul dot_S2048x100_S100x10_S2048x10_1_0_0_1_n_n none (truncf .bf16 v11 bitsLt_bf16_f32)
      (truncf .bf16 v34 bitsLt_bf16_f32) (constant S2048x10 .f32 0x00000000#32) (ix2 p o)
        = ∑ k : Fin 100, v11 (ix2 p k) * v34 (ix2 k o) :=
    Idealize.ShloMosaic.MatmulAt.matmul_zero_ix2 dot_S2048x100_S100x10_S2048x10_1_0_0_1_n_n rfl rfl
      (fun i q => by
        unfold DotDims.lhsIdx
        rw [dif_neg (show ¬(0 : Fin S2048x100.rank) ∈ dot_S2048x100_S100x10_S2048x10_1_0_0_1_n_n.lhsBatch by decide),
          dif_pos (show (0 : Fin S2048x100.rank) ∈ dot_S2048x100_S100x10_S2048x10_1_0_0_1_n_n.lhsNonContracting by decide)]
        rfl)
      (fun i q => dot_S2048x100_S100x10_S2048x10_1_0_0_1_n_n.lhsIdx_val_of_single rfl i q)
      (fun i q => dot_S2048x100_S100x10_S2048x10_1_0_0_1_n_n.rhsIdx_val_of_single rfl i q)
      (fun i q => by
        unfold DotDims.rhsIdx
        rw [dif_neg (show ¬(1 : Fin S100x10.rank) ∈ dot_S2048x100_S100x10_S2048x10_1_0_0_1_n_n.rhsBatch by decide),
          dif_pos (show (1 : Fin S100x10.rank) ∈ dot_S2048x100_S100x10_S2048x10_1_0_0_1_n_n.rhsNonContracting by decide)]
        rfl)
      none (truncf .bf16 v11 bitsLt_bf16_f32) (truncf .bf16 v34 bitsLt_bf16_f32) p o
  have hb : broadcastTo S2048x10 (shapeCast S1x10 v38 shapeCasts_S1x10_S1x10) broadcasts_S1x10_S2048x10 (ix2 p o)
      = v38 (ix2 0 o) := by
    rw [shapeCast_self]
    exact broadcastTo_1b_ab_apply v38 broadcasts_S1x10_S2048x10 p o
  show _ + _ = _
  rw [hm, hb]
  rfl

/-- The top scores at a row. -/
theorem tops_at (s : FVec Ideal S2048x10 .f32) (p : Fin 2048) :
    tops s (ix1 p) = max Cert.Mlp.ninf (Finset.univ.fold max Cert.Mlp.ninf fun o : Fin 10 => s (ix2 p o)) :=
  congrArg (max Cert.Mlp.ninf) (Cert.LibRowMax.laneMax_row s reduces_S2048x10_S2048 (.inl rfl) rfl p)

/-- The shifted exponentials at an entry. -/
theorem shifted_at (s : FVec Ideal S2048x10 .f32) (p : Fin 2048) (o : Fin 10) :
    shifted s (ix2 p o)
      = Ideal.exp (s (ix2 p o) - max Cert.Mlp.ninf (Finset.univ.fold max Cert.Mlp.ninf fun o' : Fin 10 => s (ix2 p o'))) := by
  show Ideal.exp (s (ix2 p o) - spread (tops s) (ix2 p o)) = _
  rw [spread_at, tops_at]

/-- The softmax at an entry. -/
theorem softmaxOf_at (s : FVec Ideal S2048x10 .f32) (p : Fin 2048) (o : Fin 10) :
    softmaxOf s (ix2 p o) = Ideal.div (shifted s (ix2 p o)) (∑ o' : Fin 10, shifted s (ix2 p o')) := by
  show Ideal.div (shifted s (ix2 p o)) (spread _ (ix2 p o)) = _
  rw [spread_at]
  exact congrArg (Ideal.div _) (Cert.LibAxisFold.laneSum_row (shifted s) reduces_S2048x10_S2048 (.inl rfl) rfl p)

/-- The softmax payload at row `p`, class `o`: the exponential of the score minus the row's top score, over the sum of
    the row's such exponentials. -/
theorem probs_at (v11 : FVec Ideal S2048x100 .f32) (v34 : Vec Ideal S100x10 .f32) (v38 : Vec Ideal S1x10 .f32)
    (p : Fin 2048) (o : Fin 10) :
    k0_pay1 (F := Ideal) v11 v34 v38 (ix2 p o)
      = Ideal.div (Ideal.exp (rowLogit v11 v34 v38 p o - rowTop v11 v34 v38 p))
          (∑ o' : Fin 10, Ideal.exp (rowLogit v11 v34 v38 p o' - rowTop v11 v34 v38 p)) := by
  have hs : (fun o' : Fin 10 => scores v11 v34 v38 (ix2 p o')) = rowLogit v11 v34 v38 p :=
    funext fun o' => scores_at v11 v34 v38 p o'
  rw [pay1_eq, softmaxOf_at]
  simp only [shifted_at, hs, scores_at]
  rfl

end Cert.Mlp.Pay

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.CountLaw.lean ====
/-
  The counting law: counting tile by tile and taking the last row back out counts the first 65535 rows.

  The 65536 rows are cut into a 2 × 16 grid of tiles of 2048 consecutive rows; tile `(c, i)` holds the rows
  `(16 c + i) · 2048 + p`. Summing a real-valued quantity over every tile, with the value of the very last row (row
  65535, the last row of tile `(1, 15)`) subtracted from that tile's sum, gives the sum over the rows `0 … 65534`.
  Every term is a real number, so the subtraction is the reals' and cancels.
-/
import Mathlib.Data.EReal.Operations
import Mathlib.Algebra.BigOperators.Fin
import proofs.«117802_j59803124630057_2_alg».proof.Proof.LibSumChunks

open scoped BigOperators

namespace Cert.Mlp.Count

open Cert.Lib.SumChunks

/-- The inclusion of the reals in the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- The tiles' sums, summed, are the sum over all rows. -/
theorem tiles_sum {M : Type*} [AddCommMonoid M] (x : Fin 65536 → M) :
    (∑ c : Fin 2, ∑ i : Fin 16, ∑ p : Fin 2048, x ⟨(c.val * 16 + i.val) * 2048 + p.val, by omega⟩)
      = ∑ k : Fin 65536, x k := by
  rw [sum_chunks 32 2048 rfl x,
    sum_chunks 2 16 rfl (fun t : Fin 32 => ∑ p : Fin 2048, x ⟨p.val + 2048 * t.val, chunk_lt t p⟩)]
  refine Finset.sum_congr rfl fun c _ => Finset.sum_congr rfl fun i _ => Finset.sum_congr rfl fun p _ =>
    congrArg x (Fin.ext ?_)
  show (c.val * 16 + i.val) * 2048 + p.val = p.val + 2048 * (i.val + 16 * c.val)
  omega

/-- Only the last tile carries a correction. -/
theorem corr_sum {M : Type*} [AddCommMonoid M] (y : M) :
    (∑ c : Fin 2, ∑ i : Fin 16, (if c.val = 1 ∧ i.val = 15 then y else 0)) = y := by
  have inner : ∀ c : Fin 2, (∑ i : Fin 16, (if c.val = 1 ∧ i.val = 15 then y else 0))
      = if c = (1 : Fin 2) then y else 0 := by
    intro c
    rw [Finset.sum_eq_single (⟨15, by omega⟩ : Fin 16)]
    · by_cases hc : c = (1 : Fin 2)
      · subst hc; rw [if_pos rfl, if_pos ⟨rfl, rfl⟩]
      · rw [if_neg hc, if_neg (fun h => hc (Fin.ext h.1))]
    · intro i _ hi
      rw [if_neg (fun h => hi (Fin.ext h.2))]
    · intro h; exact absurd (Finset.mem_univ _) h
  simp only [inner]
  rw [Finset.sum_ite_eq' Finset.univ (1 : Fin 2) (fun _ => y), if_pos (Finset.mem_univ _)]

/-- The law over the reals. -/
theorem count_law_real (x : Fin 65536 → ℝ) :
    (∑ c : Fin 2, ∑ i : Fin 16, ((∑ p : Fin 2048, x ⟨(c.val * 16 + i.val) * 2048 + p.val, by omega⟩)
        - (if c.val = 1 ∧ i.val = 15 then x ⟨65535, by omega⟩ else 0)))
      = ∑ r : Fin 65535, x r.castSucc := by
  simp only [Finset.sum_sub_distrib]
  rw [tiles_sum x, corr_sum, Fin.sum_univ_castSucc]
  exact add_sub_cancel_right _ _

/-- The counting law: the tile-by-tile count, with the very last row taken back out of the last tile, is the count
    over the first 65535 rows. -/
theorem count_law (a : Fin 65536 → EReal) (ha : ∀ r, ∃ x : ℝ, a r = (x : EReal)) :
    (∑ c : Fin 2, ∑ i : Fin 16, ((∑ p : Fin 2048, a ⟨(c.val * 16 + i.val) * 2048 + p.val, by omega⟩)
        - (if c.val = 1 ∧ i.val = 15 then a ⟨65535, by omega⟩ else 0)))
      = ∑ r : Fin 65535, a r.castSucc := by
  choose x hx using ha
  obtain rfl : a = fun r => (x r : EReal) := funext hx
  have hite : ∀ (P : Prop) [Decidable P] (y : ℝ), (if P then (y : EReal) else 0) = ((if P then y else 0 : ℝ) : EReal) := by
    intro P _ y
    by_cases hP : P
    · rw [if_pos hP, if_pos hP]
    · rw [if_neg hP, if_neg hP, EReal.coe_zero]
  simp only [hite, ← coe_sum, ← EReal.coe_sub]
  exact congrArg _ (count_law_real x)

end Cert.Mlp.Count
-- ==== Proof.RefIsSpec.lean ====
/-
  The reference program, read operation by operation at the ideal values, computes the stated functions.

  Its hidden layer at row `r`, unit `k` is the rectified affine map `hid`; the frequency result adds to each unit the
  number of the first 65535 rows where that unit is strictly positive; the probability result is the softmax of the
  second affine map, taken with the row maximum (never below the least extended real) subtracted.
-/
import proofs.«117802_j59803124630057_2_alg».proof.Proof.Gen.ReferenceIdeal.Read
import proofs.«117802_j59803124630057_2_alg».proof.Proof.Spec
import proofs.«117802_j59803124630057_2_alg».proof.Proof.LibRowMax

noncomputable section

open scoped BigOperators

namespace Cert.Mlp.Ref

open Cert.ReferenceIdeal Cert.ReferenceIdeal.Gen Cert.ReferenceIdeal.Read Idealize.ShloMosaic Idealize.ShloMosaic.ValueIdx

/-- The arguments of the reference at the ideal values. -/
abbrev TX := (⟨S65536x28x28, .f32⟩ : BufTy).Contents (Elt Ideal)
abbrev TW1 := (⟨S784x100, .f32⟩ : BufTy).Contents (Elt Ideal)
abbrev TB1 := (⟨S100, .f32⟩ : BufTy).Contents (Elt Ideal)
abbrev TW2 := (⟨S100x10, .f32⟩ : BufTy).Contents (Elt Ideal)
abbrev TB2 := (⟨S10, .f32⟩ : BufTy).Contents (Elt Ideal)

/-- The hidden layer of the reference at row `r`, unit `k`: the rectified affine map of the flattened row. -/
theorem ref_hid (x0 : TX) (x1 : TW1) (x2 : TB1) (r : Fin 65536) (k : Fin 100) :
    val_main_v5 (F := Ideal) x0 x1 x2 (ix2 r k) = Cert.Mlp.hid (val_main_v0 (F := Ideal) x0) x1 x2 r k := by
  rw [val_main_v5_apply, val_main_v4_apply, val_main_v1_apply, val_main_v3_apply, val_main_v2_apply,
    val_main_call0_v0_apply, val_main_call0_cst_apply]
  have el : ∀ j : Fin 784, lidx_main_v1 (ix2 r k) j = ix2 r j := fun j =>
    funext fun a => Fin.ext (by match a with | ⟨0, _⟩ => rfl | ⟨1, _⟩ => rfl)
  have er : ∀ j : Fin 784, ridx_main_v1 (ix2 r k) j = ix2 j k := fun j =>
    funext fun a => Fin.ext (by match a with | ⟨0, _⟩ => rfl | ⟨1, _⟩ => rfl)
  have eb : idx_main_v2 (idx_main_v3 (ix2 r k)) = ix1 k :=
    funext fun a => Fin.ext (by match a with | ⟨0, _⟩ => rfl)
  simp only [el, er, eb]
  rw [Ideal.ofBits_def, Ideal.ofBits_zero_f32, Ideal.maximumf_def, Ideal.addf_def]
  rfl

/-- The one-bit answer of a comparison read as an unsigned number: one for the set bit, zero otherwise. -/
theorem uitofp_bit (b : BitVec 1) :
    FloatOps.uitofp (F := Ideal) .f32 b = if b = 1#1 then (1 : EReal) else 0 := by
  by_cases h : b = 1#1
  · subst h
    rw [if_pos rfl]
    show ((((1#1 : BitVec 1).toNat : ℝ)) : EReal) = 1
    simp
  · rw [if_neg h, eq_zero_of_ne_one h]
    show ((((0#1 : BitVec 1).toNat : ℝ)) : EReal) = 0
    simp

/-- The frequency result of the reference: each unit gains the number of the first 65535 rows where it is active. -/
theorem ref_newFreq (x0 : TX) (x1 : TW1) (x2 x3 : TB1) :
    val_main_v11 (F := Ideal) x0 x1 x2 x3 = Cert.Mlp.newFreq (val_main_v0 (F := Ideal) x0) x1 x2 x3 := by
  funext i
  obtain ⟨k, rfl⟩ : ∃ k, i = ix1 k := ⟨i 0, eq_ix1 i⟩
  rw [val_main_v11_apply, val_main_v10_apply, val_main_cst_0_apply]
  simp only [val_main_v9_apply, val_main_v8_apply, val_main_v6_apply, val_main_v7_apply, val_main_cst_apply]
  have e6 : ∀ r : Fin 65535, idx_main_v6 (idx_main_v10 (ix1 k) r) = ix2 r.castSucc k := fun r =>
    funext fun a => Fin.ext (by match a with | ⟨0, _⟩ => rfl | ⟨1, _⟩ => rfl)
  simp only [e6, ref_hid, uitofp_bit]
  rw [Ideal.ofBits_def, Ideal.ofBits_zero_f32, Ideal.addf_def, zero_add]
  rfl

/-- The host's `reduce` with a `maximum` body along the columns of an `[a, b]` matrix, read at row `p`: the fold of
    `max` from the initial value over the row's entries. -/
theorem hostMax_row {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) fun k => x (ix2 p k) := by
  refine (Host.reduce_eq_fold_single (FloatOps.maximumf (F := Ideal) (φ := .f32)) x init h' h hu (ix1 p)).trans ?_
  exact congrArg (fun f => Finset.fold max (init (Shape.Idx.first hu)) f (Finset.univ : Finset (Fin b)))
    (funext fun k => congrArg x (Cert.LibRowMax.lift_row h p k))

/-- The score of class `o` of row `r` before the softmax. -/
theorem ref_logit (x0 : TX) (x1 : TW1) (x2 : TB1) (x4 : TW2) (x5 : TB2) (r : Fin 65536) (o : Fin 10) :
    val_main_v15 (F := Ideal) x0 x1 x2 x4 x5 (ix2 r o)
      = Cert.Mlp.logit (val_main_v0 (F := Ideal) x0) x1 x2 x4 x5 r o := by
  rw [val_main_v15_apply, val_main_v12_apply, val_main_v14_apply, val_main_v13_apply]
  have el : ∀ k : Fin 100, lidx_main_v12 (ix2 r o) k = ix2 r k := fun k =>
    funext fun a => Fin.ext (by match a with | ⟨0, _⟩ => rfl | ⟨1, _⟩ => rfl)
  have er : ∀ k : Fin 100, ridx_main_v12 (ix2 r o) k = ix2 k o := fun k =>
    funext fun a => Fin.ext (by match a with | ⟨0, _⟩ => rfl | ⟨1, _⟩ => rfl)
  have eb : idx_main_v13 (idx_main_v14 (ix2 r o)) = ix1 o :=
    funext fun a => Fin.ext (by match a with | ⟨0, _⟩ => rfl)
  simp only [el, er, eb, ref_hid]
  rw [Ideal.addf_def]
  rfl

/-- The row maximum the reference subtracts: the largest score of the row, never below the least extended real. -/
theorem ref_rowMax (x0 : TX) (x1 : TW1) (x2 : TB1) (x4 : TW2) (x5 : TB2) (r : Fin 65536) :
    val_main_v18 (F := Ideal) x0 x1 x2 x4 x5 (ix1 r)
      = Cert.Mlp.rowMax (val_main_v0 (F := Ideal) x0) x1 x2 x4 x5 r := by
  rw [val_main_v18_apply, val_main_v17_apply, val_main_cst_2_apply]
  unfold val_main_v16
  rw [hostMax_row (val_main_v15 (F := Ideal) x0 x1 x2 x4 x5) (val_main_cst_1 (F := Ideal))
    reducesTo_S65536x10_S65536_d1 (by decide) h_S_ r, val_main_cst_1_apply]
  simp only [ref_logit]
  rw [Ideal.ofBits_def, Ideal.maximumf_def]
  rfl

/-- The shifted exponential of a score. -/
theorem ref_shiftedExp (x0 : TX) (x1 : TW1) (x2 : TB1) (x4 : TW2) (x5 : TB2) (r : Fin 65536) (o : Fin 10) :
    val_main_v22 (F := Ideal) x0 x1 x2 x4 x5 (ix2 r o)
      = Cert.Mlp.shiftedExp (val_main_v0 (F := Ideal) x0) x1 x2 x4 x5 r o := by
  rw [val_main_v22_apply, val_main_v21_apply, val_main_v20_apply, val_main_v19_apply]
  have e : idx_main_v19 (idx_main_v20 (ix2 r o)) = ix1 r :=
    funext fun a => Fin.ext (by match a with | ⟨0, _⟩ => rfl)
  rw [e, ref_logit, ref_rowMax, Ideal.hostUnary_exp_def, Ideal.subf_def]
  rfl

/-- The probability result of the reference: each row's shifted exponentials over their sum. -/
theorem ref_probs (x0 : TX) (x1 : TW1) (x2 : TB1) (x4 : TW2) (x5 : TB2) :
    val_main_v26 (F := Ideal) x0 x1 x2 x4 x5
      = Cert.Mlp.probs (val_main_v0 (F := Ideal) x0) x1 x2 x4 x5 := by
  funext i
  obtain ⟨r, o, rfl⟩ : ∃ r o, i = ix2 r o := ⟨i 0, i 1, eq_ix2 i⟩
  rw [val_main_v26_apply, val_main_v25_apply, val_main_v24_apply, val_main_v23_apply, val_main_cst_3_apply]
  have e : ∀ c : Fin 10, idx_main_v23 (idx_main_v24 (idx_main_v25 (ix2 r o))) c = ix2 r c := fun c =>
    funext fun a => Fin.ext (by match a with | ⟨0, _⟩ => rfl | ⟨1, _⟩ => rfl)
  simp only [e, ref_shiftedExp]
  rw [Ideal.ofBits_def, Ideal.ofBits_zero_f32, zero_add, Ideal.hostDivf_def]
  rfl

/-- The indicator is a real number (one or zero), never an infinity. -/
theorem ind_real (h : EReal) : ∃ x : ℝ, Cert.Mlp.ind h = (x : EReal) := by
  unfold Cert.Mlp.ind
  by_cases hb : Ideal.cmp .ogt h 0 = 1#1
  · rw [if_pos hb]; exact ⟨1, EReal.coe_one.symm⟩
  · rw [if_neg hb]; exact ⟨0, EReal.coe_zero.symm⟩

end Cert.Mlp.Ref

end
-- ==== Proof.TileIsSpec.lean ====
/-
  One tile of the kernel against the stated functions, and the frequency law.

  The kernel's grid point number `t` (of 32) sees rows `2048 t … 2048 t + 2047` of the flattened input, the whole of
  both layers' weights and biases. On those values its three payloads are the stated functions of the whole input at
  the tile's rows: the hidden values, the class probabilities, and the count of active rows of the tile with the tile's
  last row taken back out at the last grid point. Summed over the 2 × 16 grid those counts are the number of active
  rows among the first 65535.
-/
import proofs.«117802_j59803124630057_2_alg».proof.Proof.PayloadAt
import proofs.«117802_j59803124630057_2_alg».proof.Proof.PayloadProbs
import proofs.«117802_j59803124630057_2_alg».proof.Proof.CountLaw
import proofs.«117802_j59803124630057_2_alg».proof.Proof.RefIsSpec

noncomputable section

open scoped BigOperators

namespace Cert.Mlp.Tile

open Cert.KernelIdeal Cert.KernelIdeal.Gen Idealize.ShloMosaic Idealize.ShloMosaic.ValueIdx Cert.Mlp.Pay

/-- The hidden values of tile `t`: row `p` of the tile is row `2048 t + p` of the flattened input. -/
theorem tile_hid (xf : Arr SX) (W1 : Arr SW1) (b1 : Arr SB1) (t : Fin 32)
    (v0 : Vec Ideal S2048x784 .f32) (v3 : Vec Ideal S784x100 .f32) (v6 : Vec Ideal S1x100 .f32)
    (h0 : ∀ (p : Fin 2048) (j : Fin 784), v0 (ix2 p j) = xf (ix2 ⟨t.val * 2048 + p.val, by omega⟩ j))
    (h3 : ∀ (j : Fin 784) (q : Fin 100), v3 (ix2 j q) = W1 (ix2 j q))
    (h6 : ∀ q : Fin 100, v6 (ix2 0 q) = b1 (ix1 q)) (p : Fin 2048) (q : Fin 100) :
    k0_pay2 (F := Ideal) v0 v3 v6 (ix2 p q) = Cert.Mlp.hid xf W1 b1 ⟨t.val * 2048 + p.val, by omega⟩ q := by
  rw [hidden_at]
  unfold Cert.Mlp.hid
  simp only [h0, h3, h6]

/-- The class probabilities of tile `t`. -/
theorem tile_probs (xf : Arr SX) (W1 : Arr SW1) (b1 : Arr SB1) (W2 : Arr SW2) (b2 : Arr SB2) (t : Fin 32)
    (v0 : Vec Ideal S2048x784 .f32) (v3 : Vec Ideal S784x100 .f32) (v6 : Vec Ideal S1x100 .f32)
    (v34 : Vec Ideal S100x10 .f32) (v38 : Vec Ideal S1x10 .f32)
    (h0 : ∀ (p : Fin 2048) (j : Fin 784), v0 (ix2 p j) = xf (ix2 ⟨t.val * 2048 + p.val, by omega⟩ j))
    (h3 : ∀ (j : Fin 784) (q : Fin 100), v3 (ix2 j q) = W1 (ix2 j q))
    (h6 : ∀ q : Fin 100, v6 (ix2 0 q) = b1 (ix1 q))
    (h34 : ∀ (k : Fin 100) (o : Fin 10), v34 (ix2 k o) = W2 (ix2 k o))
    (h38 : ∀ o : Fin 10, v38 (ix2 0 o) = b2 (ix1 o)) (p : Fin 2048) (o : Fin 10) :
    k0_pay1 (F := Ideal) (k0_pay2 (F := Ideal) v0 v3 v6) v34 v38 (ix2 p o)
      = Cert.Mlp.probs xf W1 b1 W2 b2 (ix2 ⟨t.val * 2048 + p.val, by omega⟩ o) := by
  have hl : rowLogit (k0_pay2 (F := Ideal) v0 v3 v6) v34 v38 p
      = Cert.Mlp.logit xf W1 b1 W2 b2 ⟨t.val * 2048 + p.val, by omega⟩ := by
    funext o'
    unfold rowLogit Cert.Mlp.logit
    simp only [tile_hid xf W1 b1 t v0 v3 v6 h0 h3 h6, h34, h38]
  have ht : rowTop (k0_pay2 (F := Ideal) v0 v3 v6) v34 v38 p
      = Cert.Mlp.rowMax xf W1 b1 W2 b2 ⟨t.val * 2048 + p.val, by omega⟩ := by
    unfold rowTop Cert.Mlp.rowMax
    rw [hl]
  rw [probs_at, hl, ht]
  rfl

/-- The count tile `t` contributes at grid point `i`: its active rows, the tile's last row taken back out at the last
    grid point. -/
theorem tile_partial (xf : Arr SX) (W1 : Arr SW1) (b1 : Arr SB1) (t : Fin 32)
    (v0 : Vec Ideal S2048x784 .f32) (v3 : Vec Ideal S784x100 .f32) (v6 : Vec Ideal S1x100 .f32)
    (h0 : ∀ (p : Fin 2048) (j : Fin 784), v0 (ix2 p j) = xf (ix2 ⟨t.val * 2048 + p.val, by omega⟩ j))
    (h3 : ∀ (j : Fin 784) (q : Fin 100), v3 (ix2 j q) = W1 (ix2 j q))
    (h6 : ∀ q : Fin 100, v6 (ix2 0 q) = b1 (ix1 q)) (i : grid0.Coords) (q : Fin 100) :
    k0_pay3 (F := Ideal) i v0 v3 v6 (ix2 0 q)
      = (∑ p : Fin 2048, Cert.Mlp.ind (Cert.Mlp.hid xf W1 b1 ⟨t.val * 2048 + p.val, by omega⟩ q))
        - (if (i 0).val = 1 ∧ (i 1).val = 15 then
            Cert.Mlp.ind (Cert.Mlp.hid xf W1 b1 ⟨t.val * 2048 + 2047, by omega⟩ q) else 0) := by
  rw [partial_at]
  simp only [tile_hid xf W1 b1 t v0 v3 v6 h0 h3 h6]
  rfl

/-- The frequency law: the grid points' counts, summed, are the number of active rows among the first 65535. -/
theorem freq_law (xf : Arr SX) (W1 : Arr SW1) (b1 : Arr SB1) (k : Fin 100) (P : Fin 2 → Fin 16 → EReal)
    (hP : ∀ c i, P c i
      = (∑ p : Fin 2048, Cert.Mlp.ind (Cert.Mlp.hid xf W1 b1 ⟨(c.val * 16 + i.val) * 2048 + p.val, by omega⟩ k))
        - (if c.val = 1 ∧ i.val = 15 then Cert.Mlp.ind (Cert.Mlp.hid xf W1 b1 ⟨65535, by omega⟩ k) else 0)) :
    (∑ c : Fin 2, ∑ i : Fin 16, P c i) = Cert.Mlp.activeCount xf W1 b1 k := by
  simp only [hP]
  exact Cert.Mlp.Count.count_law (fun r => Cert.Mlp.ind (Cert.Mlp.hid xf W1 b1 r k))
    (fun r => Cert.Mlp.Ref.ind_real _)

end Cert.Mlp.Tile

end
-- ==== Proof.CoordFacts.lean ====
/-
  The grid of the kernel's one launch, point by point.

  The launch runs on a 2 × 16 grid, 32 points in row-major order: point `t` has coordinates `(t / 16, t % 16)`.
  The flat input and the probabilities are cut into 32 row blocks of 2048 rows, and point `t` works on block `t`
  (its index map is `16 · c₀ + c₁`); the partial counts are cut into 2 blocks, and point `t` works on block `t / 16`;
  the two weight matrices and the two bias rows are each one whole block at every point. Every fact is decided over
  the 32 points.
-/
import proofs.«117802_j59803124630057_2_alg».proof.Proof.Gen.KernelIdeal.Points

noncomputable section

namespace Cert.Mlp.Grid

open Idealize.ShloMosaic
open Cert.KernelIdeal Cert.KernelIdeal.Gen

variable [Cert.KernelIdeal.Facts]

/-! ## The coordinates of a point -/

/-- Point `t`'s first coordinate is `t / 16`. -/
theorem coords0 : ∀ t : Fin cfg0.N, (grid0.coords t 0).val = t.val / 16 :=
  (by decide +kernel : ∀ t : Fin grid0.N, (grid0.coords t 0).val = t.val / 16)

/-- Point `t`'s second coordinate is `t % 16`. -/
theorem coords1 : ∀ t : Fin cfg0.N, (grid0.coords t 1).val = t.val % 16 :=
  (by decide +kernel : ∀ t : Fin grid0.N, (grid0.coords t 1).val = t.val % 16)

/-! ## The block each window is on at a point -/

/-- The flat input's row block at point `t` is block `t`. -/
theorem idx0_row : ∀ t : Fin cfg0.N, win0_0.index t (0 : Fin 2) = t.val :=
  (by decide +kernel : ∀ t : Fin grid0.N, (@win0_0 Gen.facts₀).index t (0 : Fin 2) = t.val)

/-- The flat input is not cut along its columns. -/
theorem idx0_col : ∀ t : Fin cfg0.N, win0_0.index t (1 : Fin 2) = 0 :=
  (by decide +kernel : ∀ t : Fin grid0.N, (@win0_0 Gen.facts₀).index t (1 : Fin 2) = 0)

/-- The first layer's weights are one whole block at every point. -/
theorem idx1_0 : ∀ t : Fin cfg0.N, win0_1.index t (0 : Fin 2) = 0 :=
  (by decide +kernel : ∀ t : Fin grid0.N, (@win0_1 Gen.facts₀).index t (0 : Fin 2) = 0)
theorem idx1_1 : ∀ t : Fin cfg0.N, win0_1.index t (1 : Fin 2) = 0 :=
  (by decide +kernel : ∀ t : Fin grid0.N, (@win0_1 Gen.facts₀).index t (1 : Fin 2) = 0)

/-- The first layer's bias row is one whole block at every point. -/
theorem idx2_0 : ∀ t : Fin cfg0.N, win0_2.index t (0 : Fin 2) = 0 :=
  (by decide +kernel : ∀ t : Fin grid0.N, (@win0_2 Gen.facts₀).index t (0 : Fin 2) = 0)
theorem idx2_1 : ∀ t : Fin cfg0.N, win0_2.index t (1 : Fin 2) = 0 :=
  (by decide +kernel : ∀ t : Fin grid0.N, (@win0_2 Gen.facts₀).index t (1 : Fin 2) = 0)

/-- The second layer's weights are one whole block at every point. -/
theorem idx3_0 : ∀ t : Fin cfg0.N, win0_3.index t (0 : Fin 2) = 0 :=
  (by decide +kernel : ∀ t : Fin grid0.N, (@win0_3 Gen.facts₀).index t (0 : Fin 2) = 0)
theorem idx3_1 : ∀ t : Fin cfg0.N, win0_3.index t (1 : Fin 2) = 0 :=
  (by decide +kernel : ∀ t : Fin grid0.N, (@win0_3 Gen.facts₀).index t (1 : Fin 2) = 0)

/-- The second layer's bias row is one whole block at every point. -/
theorem idx4_0 : ∀ t : Fin cfg0.N, win0_4.index t (0 : Fin 2) = 0 :=
  (by decide +kernel : ∀ t : Fin grid0.N, (@win0_4 Gen.facts₀).index t (0 : Fin 2) = 0)
theorem idx4_1 : ∀ t : Fin cfg0.N, win0_4.index t (1 : Fin 2) = 0 :=
  (by decide +kernel : ∀ t : Fin grid0.N, (@win0_4 Gen.facts₀).index t (1 : Fin 2) = 0)

/-- The probabilities' row block at point `t` is block `t`. -/
theorem idx5_row : ∀ t : Fin cfg0.N, win0_5.index t (0 : Fin 2) = t.val :=
  (by decide +kernel : ∀ t : Fin grid0.N, (@win0_5 Gen.facts₀).index t (0 : Fin 2) = t.val)

/-- The probabilities are not cut along their columns. -/
theorem idx5_col : ∀ t : Fin cfg0.N, win0_5.index t (1 : Fin 2) = 0 :=
  (by decide +kernel : ∀ t : Fin grid0.N, (@win0_5 Gen.facts₀).index t (1 : Fin 2) = 0)

/-- The partial counts' block at point `t` is block `t / 16` along the leading axis, -/
theorem idx6_0 : ∀ t : Fin cfg0.N, win0_6.index t (0 : Fin 3) = t.val / 16 :=
  (by decide +kernel : ∀ t : Fin grid0.N, (@win0_6 Gen.facts₀).index t (0 : Fin 3) = t.val / 16)

/-- and they are not cut along the other two axes. -/
theorem idx6_1 : ∀ t : Fin cfg0.N, win0_6.index t (1 : Fin 3) = 0 :=
  (by decide +kernel : ∀ t : Fin grid0.N, (@win0_6 Gen.facts₀).index t (1 : Fin 3) = 0)
theorem idx6_2 : ∀ t : Fin cfg0.N, win0_6.index t (2 : Fin 3) = 0 :=
  (by decide +kernel : ∀ t : Fin grid0.N, (@win0_6 Gen.facts₀).index t (2 : Fin 3) = 0)

end Cert.Mlp.Grid

end
-- ==== Proof.BlockGeometry.lean ====
/-
  Which array index a block's element is.

  The launch cuts the flat input [65536, 784] and the probabilities [65536, 10] into 32 row blocks of 2048 rows, point
  `t` on block `t`: element `(p, j)` of the block is element `(2048 t + p, j)` of the array. The partial counts
  [2, 1, 100] are cut into 2 blocks along the leading axis, point `t` on block `t / 16`. The two weight matrices and
  the two bias rows are each one whole block at every point. A block's coordinate on an axis is always the block index
  times the block's extent plus the coordinate inside the block.

  The probabilities' blocks, written back at every point, cover the whole array: row `r` is in the block of point
  `r / 2048`. The partial counts' blocks are written back at the last point of each of the two rows of the grid:
  block `b` at point `16 b + 15`.
-/
import proofs.«117802_j59803124630057_2_alg».proof.Proof.Gen.KernelIdeal.Frame
import proofs.«117802_j59803124630057_2_alg».proof.Proof.CoordFacts
import Idealize.ShloMosaic.Lib.Pipeline.Value
import Idealize.ShloMosaic.Lib.ValueIdx

set_option maxRecDepth 16384

noncomputable section

namespace Cert.Mlp.Geo

open Idealize.ShloMosaic Idealize.ShloMosaic.ValueIdx Idealize.ShloMosaic.TcCoe
open Idealize.SL Idealize.SL.Sem
open Cert.KernelIdeal Cert.KernelIdeal.Gen Cert.Mlp.Grid

variable {F : FTy → Type} [FloatOps F]

/-- The launch has 32 points. -/
theorem t_lt (t : Fin cfg0.N) : t.val < 32 := lt_of_lt_of_eq t.isLt N_0

variable (m : (ℓ : Loc nD τ sig) → Buf (Elt F) ℓ) (c : Dev nD) (t : Fin cfg0.N)

/-! ## The input windows -/

/-- Element `(p, j)` of the flat input's block at point `t` is element `(2048 t + p, j)` of the array. -/
theorem iblk0_at (p : Fin 2048) (j : Fin 784) :
    (iblk m c 0 t : S2048x784.Idx → Elt F .f32) (ix2 p j)
      = V m c main_v0 (ix2 ⟨t.val * 2048 + p.val, by have := t_lt t; omega⟩ j) := by
  show V m c main_v0 (((cfg0.win 0).blk t).view.emb (ix2 p j)) = _
  refine congrArg _ (funext fun a => Fin.ext ?_)
  match a with
  | ⟨0, _⟩ =>
    show win0_0.index t (0 : Fin 2) * 2048 + 1 * p.val = t.val * 2048 + p.val
    rw [idx0_row]; omega
  | ⟨1, _⟩ =>
    show win0_0.index t (1 : Fin 2) * 784 + 1 * j.val = j.val
    rw [idx0_col]; omega

/-- The first layer's weights are their own block. -/
theorem iblk1_at (j : Fin 784) (q : Fin 100) :
    (iblk m c 1 t : S784x100.Idx → Elt F .f32) (ix2 j q) = V m c main_arg1 (ix2 j q) := by
  show V m c main_arg1 (((cfg0.win 1).blk t).view.emb (ix2 j q)) = _
  refine congrArg _ (funext fun a => Fin.ext ?_)
  match a with
  | ⟨0, _⟩ =>
    show win0_1.index t (0 : Fin 2) * 784 + 1 * j.val = j.val
    rw [idx1_0]; omega
  | ⟨1, _⟩ =>
    show win0_1.index t (1 : Fin 2) * 100 + 1 * q.val = q.val
    rw [idx1_1]; omega

/-- The first layer's bias row is its own block. -/
theorem iblk2_at (q : Fin 100) :
    (iblk m c 2 t : S1x100.Idx → Elt F .f32) (ix2 0 q) = V m c main_v1 (ix2 0 q) := by
  show V m c main_v1 (((cfg0.win 2).blk t).view.emb (ix2 0 q)) = _
  refine congrArg _ (funext fun a => Fin.ext ?_)
  match a with
  | ⟨0, _⟩ =>
    show win0_2.index t (0 : Fin 2) * 1 + 1 * (0 : Fin 1).val = (0 : Fin 1).val
    rw [idx2_0]; rfl
  | ⟨1, _⟩ =>
    show win0_2.index t (1 : Fin 2) * 100 + 1 * q.val = q.val
    rw [idx2_1]; omega

/-- The second layer's weights are their own block. -/
theorem iblk3_at (k : Fin 100) (o : Fin 10) :
    (iblk m c 3 t : S100x10.Idx → Elt F .f32) (ix2 k o) = V m c main_arg4 (ix2 k o) := by
  show V m c main_arg4 (((cfg0.win 3).blk t).view.emb (ix2 k o)) = _
  refine congrArg _ (funext fun a => Fin.ext ?_)
  match a with
  | ⟨0, _⟩ =>
    show win0_3.index t (0 : Fin 2) * 100 + 1 * k.val = k.val
    rw [idx3_0]; omega
  | ⟨1, _⟩ =>
    show win0_3.index t (1 : Fin 2) * 10 + 1 * o.val = o.val
    rw [idx3_1]; omega

/-- The second layer's bias row is its own block. -/
theorem iblk4_at (o : Fin 10) :
    (iblk m c 4 t : S1x10.Idx → Elt F .f32) (ix2 0 o) = V m c main_v2 (ix2 0 o) := by
  show V m c main_v2 (((cfg0.win 4).blk t).view.emb (ix2 0 o)) = _
  refine congrArg _ (funext fun a => Fin.ext ?_)
  match a with
  | ⟨0, _⟩ =>
    show win0_4.index t (0 : Fin 2) * 1 + 1 * (0 : Fin 1).val = (0 : Fin 1).val
    rw [idx4_0]; rfl
  | ⟨1, _⟩ =>
    show win0_4.index t (1 : Fin 2) * 10 + 1 * o.val = o.val
    rw [idx4_1]; omega

/-! ## The output windows -/

/-- Element `(p, o)` of the probabilities' block at point `t` is element `(2048 t + p, o)` of the array. -/
theorem read5_at (G : S65536x10.Idx → Elt F .f32) (p : Fin 2048) (o : Fin 10) :
    ((cfg0.win 5).blk t).view.read (Elt F) G (ix2 p o)
      = G (ix2 ⟨t.val * 2048 + p.val, by have := t_lt t; omega⟩ o) := by
  show G (((cfg0.win 5).blk t).view.emb (ix2 p o)) = _
  refine congrArg _ (funext fun a => Fin.ext ?_)
  match a with
  | ⟨0, _⟩ =>
    show win0_5.index t (0 : Fin 2) * 2048 + 1 * p.val = t.val * 2048 + p.val
    rw [idx5_row]; omega
  | ⟨1, _⟩ =>
    show win0_5.index t (1 : Fin 2) * 10 + 1 * o.val = o.val
    rw [idx5_col]; omega

/-- An index of the probabilities is in point `t`'s block iff each coordinate is in the block's range on its axis. -/
theorem mem_blk5 (i : S65536x10.Idx) :
    i ∈ ((cfg0.win 5).blk t).view.set
      ↔ ∀ a : Fin 2, win0_5.index t a * S2048x10.size a ≤ (i a).val
          ∧ (i a).val < win0_5.index t a * S2048x10.size a + S2048x10.size a := by
  show i ∈ ((View.whole main_v3_0).slice (win0_5.rect t)).set ↔ _
  rw [View.set_slice_whole, Rect.mem_set_unit]
  exact Iff.rfl

/-- Every index of the probabilities is in the block some point writes back: row `r` in the block of point
    `r / 2048`. -/
theorem cover5 : ∀ i : S65536x10.Idx, ∃ t : Fin cfg0.N,
    (cfg0.win 5).flush t = true ∧ i ∈ ((cfg0.win 5).blk t).view.set := by
  intro i
  have hi0 : (i 0).val < 65536 := (i 0).isLt
  have hi1 : (i 1).val < 10 := (i 1).isLt
  have hlt : (i 0).val / 2048 < 32 := by omega
  let t : Fin cfg0.N := ⟨(i 0).val / 2048, lt_of_lt_of_eq hlt N_0.symm⟩
  have hv : t.val = (i 0).val / 2048 := rfl
  refine ⟨t, flush0_5 t, ?_⟩
  rw [mem_blk5]
  intro a
  match a with
  | ⟨0, _⟩ =>
    show win0_5.index t (0 : Fin 2) * 2048 ≤ (i 0).val ∧ (i 0).val < win0_5.index t (0 : Fin 2) * 2048 + 2048
    rw [idx5_row, hv]; omega
  | ⟨1, _⟩ =>
    show win0_5.index t (1 : Fin 2) * 10 ≤ (i 1).val ∧ (i 1).val < win0_5.index t (1 : Fin 2) * 10 + 10
    rw [idx5_col]; omega

/-- Element `(0, 0, q)` of the partial counts' block at point `t` is element `(t / 16, 0, q)` of the array. -/
theorem read6_at (G : S2x1x100.Idx → Elt F .f32) (q : Fin 100) :
    ((cfg0.win 6).blk t).view.read (Elt F) G (ix3 0 0 q)
      = G (ix3 ⟨t.val / 16, by have := t_lt t; omega⟩ 0 q) := by
  show G (((cfg0.win 6).blk t).view.emb (ix3 0 0 q)) = _
  refine congrArg _ (funext fun a => Fin.ext ?_)
  match a with
  | ⟨0, _⟩ =>
    show win0_6.index t (0 : Fin 3) * 1 + 1 * (0 : Fin 1).val = t.val / 16
    rw [idx6_0]; show t.val / 16 * 1 + 1 * 0 = t.val / 16; omega
  | ⟨1, _⟩ =>
    show win0_6.index t (1 : Fin 3) * 1 + 1 * (0 : Fin 1).val = (0 : Fin 1).val
    rw [idx6_1]; rfl
  | ⟨2, _⟩ =>
    show win0_6.index t (2 : Fin 3) * 100 + 1 * q.val = q.val
    rw [idx6_2]; omega

/-- An index of the partial counts is in point `t`'s block iff each coordinate is in the block's range on its axis. -/
theorem mem_blk6 (i : S2x1x100.Idx) :
    i ∈ ((cfg0.win 6).blk t).view.set
      ↔ ∀ a : Fin 3, win0_6.index t a * S1x1x100.size a ≤ (i a).val
          ∧ (i a).val < win0_6.index t a * S1x1x100.size a + S1x1x100.size a := by
  show i ∈ ((View.whole main_v3_1).slice (win0_6.rect t)).set ↔ _
  rw [View.set_slice_whole, Rect.mem_set_unit]
  exact Iff.rfl

/-- Every index of the partial counts is in the block written back at the last point of its row of the grid: block
    `b` at point `16 b + 15`. -/
theorem cover6 : ∀ i : S2x1x100.Idx, ∃ t : Fin cfg0.N,
    (cfg0.win 6).flush t = true ∧ i ∈ ((cfg0.win 6).blk t).view.set ∧ t.val = 16 * (i 0).val + 15 := by
  intro i
  have hi0 : (i 0).val < 2 := (i 0).isLt
  have hi1 : (i 1).val < 1 := (i 1).isLt
  have hi2 : (i 2).val < 100 := (i 2).isLt
  have hlt : 16 * (i 0).val + 15 < 32 := by omega
  let t : Fin cfg0.N := ⟨16 * (i 0).val + 15, lt_of_lt_of_eq hlt N_0.symm⟩
  have hv : t.val = 16 * (i 0).val + 15 := rfl
  refine ⟨t, (flush0_6 t).mpr (by rw [hv]; omega), ?_, hv⟩
  rw [mem_blk6]
  intro a
  match a with
  | ⟨0, _⟩ =>
    show win0_6.index t (0 : Fin 3) * 1 ≤ (i 0).val ∧ (i 0).val < win0_6.index t (0 : Fin 3) * 1 + 1
    rw [idx6_0, hv]; omega
  | ⟨1, _⟩ =>
    show win0_6.index t (1 : Fin 3) * 1 ≤ (i 1).val ∧ (i 1).val < win0_6.index t (1 : Fin 3) * 1 + 1
    rw [idx6_1]; omega
  | ⟨2, _⟩ =>
    show win0_6.index t (2 : Fin 3) * 100 ≤ (i 2).val ∧ (i 2).val < win0_6.index t (2 : Fin 3) * 100 + 100
    rw [idx6_2]; omega

end Cert.Mlp.Geo

end
-- ==== Proof.ValueProbs.lean ====
/-
  The first result. Point `t` of the grid reads rows t·2048 … t·2048 + 2047 of the flattened input and writes the
  class probabilities of exactly those rows into block `t` of the first output; the 32 blocks tile the array. So the
  array ends holding the probabilities of every row: one function of the arrays the region was launched on.
-/
import proofs.«117802_j59803124630057_2_alg».proof.Proof.FrameIdeal.Frame
import proofs.«117802_j59803124630057_2_alg».proof.Proof.TileIsSpec
import proofs.«117802_j59803124630057_2_alg».proof.Proof.BlockGeometry

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body

variable (m : (ℓ : Loc nD τ sig) → Buf (Elt Ideal) ℓ) (ρ : Dev nD → PrngReg)

open Cert.Mlp

/-- The flattened input, and the two bias rows read as vectors, as the region finds them. -/
def xfOf (c : Dev nD) : Arr SX := V m c main_v0
def b1Of (c : Dev nD) : Arr SB1 := fun i => V m c main_v1 (ix2 0 (i 0))
def b2Of (c : Dev nD) : Arr SB2 := fun i => V m c main_v2 (ix2 0 (i 0))

/-- The class probabilities of every row, from the arrays the region was launched on. -/
def probsOf (c : Dev nD) : S65536x10.Idx → EReal :=
  probs (xfOf m c) (V m c main_arg1) (b1Of m c) (V m c main_arg4) (b2Of m c)

/-- What point `t` writes back is block `t` of the probabilities. -/
theorem flushed5_eq (c : Dev nD) (t : Fin cfg0.N) :
    (dats m 0 c).flushed 5 t = ((cfg0.win 5).blk t).view.read (Elt Ideal) (probsOf m c) := by
  show (cfg0.win 5).cut (grid0.coords t) ((dats m 0 c).after 5 t) = _
  rw [after5]
  unfold probsAt
  funext j
  obtain ⟨p, o, rfl⟩ : ∃ (p : Fin 2048) (o : Fin 10), j = ix2 p o := ⟨j 0, j 1, eq_ix2 j⟩
  refine Eq.trans ?_ (Geo.read5_at (F := Ideal) t (probsOf m c) p o).symm
  exact Tile.tile_probs (xfOf m c) (V m c main_arg1) (b1Of m c) (V m c main_arg4) (b2Of m c) ⟨t.val, Geo.t_lt t⟩
    (iblk m c 0 t) (iblk m c 1 t) (iblk m c 2 t) (iblk m c 3 t) (iblk m c 4 t)
    (fun p j => Geo.iblk0_at m c t p j) (fun j q => Geo.iblk1_at m c t j q) (fun q => Geo.iblk2_at m c t q)
    (fun k o => Geo.iblk3_at m c t k o) (fun o => Geo.iblk4_at m c t o) p o

/-- The first output array after the run. -/
theorem final5 (c : Dev nD) : (dats m 0 c).arrAt 5 cfg0.N = probsOf m c :=
  (dats m 0 c).arrAt_eq_of_cover 5 (probsOf m c) (fun t _ => flushed5_eq m c t) (fun i => Geo.cover5 i)

end Cert.KernelIdeal.Val

end
-- ==== Proof.ValueCount.lean ====
/-
  The second result of the kernel call: a [2,1,100] array whose row `h` is the count the kernel accumulated over the
  16 tiles of half `h` of the batch. The block of row `h` is written back once, at the half's last inner step, from the
  scratch row. Adding the two rows gives, for each hidden unit, the number of rows among the FIRST 65535 whose unit is
  active: every tile counts its 2048 rows, the very last tile takes the very last row back out, and the 32 tiles
  together are all 65536 rows.
-/
import proofs.«117802_j59803124630057_2_alg».proof.Proof.ValueAcc
import proofs.«117802_j59803124630057_2_alg».proof.Proof.ValueProbs
import proofs.«117802_j59803124630057_2_alg».proof.Proof.CoordFacts

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body

variable (m : (ℓ : Loc nD τ sig) → Buf (Elt Ideal) ℓ) (ρ : Dev nD → PrngReg)

open Cert.Mlp

/-- Row `h` of the kernel call's second result: the scratch row after the last inner step of half `h`. -/
def countsOf (c : Dev nD) : S2x1x100.Idx → EReal :=
  fun i => scrAt m c ((i 0).val * 16 + 15) (lt32 (by have h2 : (i 0).val < 2 := (i 0).isLt; omega)) (ix2 0 (i 2))

/-- What a point that writes the block back writes is its row of `countsOf`. -/
theorem flushed6_eq (c : Dev nD) (t : Fin cfg0.N) (hf : (cfg0.win 6).flush t = true) :
    (dats m 0 c).flushed 6 t = ((cfg0.win 6).blk t).view.read (Elt Ideal) (countsOf m c) := by
  have h15 : t.val % 16 = 15 := (flush0_6 t).mp hf
  have hN : t.val < 32 := Geo.t_lt t
  show (cfg0.win 6).cut (grid0.coords t) ((dats m 0 c).after 6 t) = _
  rw [after6]
  unfold countAt
  funext j
  obtain ⟨a, b, q, rfl⟩ : ∃ (a : Fin 1) (b : Fin 1) (q : Fin 100), j = ix3 a b q := ⟨j 0, j 1, j 2, eq_ix3 j⟩
  obtain rfl : a = 0 := Subsingleton.elim _ _
  obtain rfl : b = 0 := Subsingleton.elim _ _
  refine Eq.trans ?_ (Geo.read6_at (F := Ideal) t (countsOf m c) q).symm
  show k0_pay6 (F := Ideal) (scrAt m c t.val t.isLt) (ix3 0 0 q) = _
  rw [Cert.Mlp.Pay.pay6_at]
  show scrAt m c t.val t.isLt (ix2 0 q) = scrAt m c (t.val / 16 * 16 + 15) _ (ix2 0 q)
  have e : t.val / 16 * 16 + 15 = t.val := by omega
  have key : ∀ (n : ℕ) (hn : n < cfg0.N), n = t.val → scrAt m c t.val t.isLt = scrAt m c n hn := by
    intro n hn en; subst en; rfl
  exact congrFun (key _ _ e) (ix2 0 q)

/-- The kernel call's second result after the run. -/
theorem final6 (c : Dev nD) : (dats m 0 c).arrAt 6 cfg0.N = countsOf m c :=
  (dats m 0 c).arrAt_eq_of_cover 6 (countsOf m c) (fun t hf => flushed6_eq m c t hf)
    (fun i => by obtain ⟨t, hf, hi, -⟩ := Geo.cover6 i; exact ⟨t, hf, hi⟩)

/-- The two rows of the second result add up, unit by unit, to the number of active rows among the first 65535. -/
theorem counts_total (c : Dev nD) (k : Fin 100) :
    (∑ h : Fin 2, countsOf m c (ix3 h 0 k)) = activeCount (xfOf m c) (V m c main_arg1) (b1Of m c) k := by
  refine Eq.trans ?_ (Tile.freq_law (xfOf m c) (V m c main_arg1) (b1Of m c) k
    (fun h i => tileCount m c (pt (h.val * 16 + i.val) (by have := h.isLt; have := i.isLt; omega)) (ix2 0 k)) ?_)
  · refine Finset.sum_congr rfl fun h _ => ?_
    exact scr_sum m c h k 15 (by omega)
  · intro h i
    have hh := h.isLt; have hi := i.isLt
    have hlt : h.val * 16 + i.val < 32 := by omega
    unfold tileCount
    refine (Tile.tile_partial (xfOf m c) (V m c main_arg1) (b1Of m c) ⟨h.val * 16 + i.val, hlt⟩
      (iblk m c 0 (pt _ hlt)) (iblk m c 1 (pt _ hlt)) (iblk m c 2 (pt _ hlt))
      (fun p j => Geo.iblk0_at m c (pt _ hlt) p j) (fun j q => Geo.iblk1_at m c (pt _ hlt) j q)
      (fun q => Geo.iblk2_at m c (pt _ hlt) q) (grid0.coords (pt _ hlt)) k).trans ?_
    have e0 : (grid0.coords (pt (h.val * 16 + i.val) (by omega)) 0).val = h.val := by
      rw [Cert.Mlp.Grid.coords0]; show (h.val * 16 + i.val) / 16 = h.val; omega
    have e1 : (grid0.coords (pt (h.val * 16 + i.val) (by omega)) 1).val = i.val := by
      rw [Cert.Mlp.Grid.coords1]; show (h.val * 16 + i.val) % 16 = i.val; omega
    rw [e0, e1]
    refine congrArg₂ (· - ·) rfl ?_
    by_cases hc : h.val = 1 ∧ i.val = 15
    · rw [if_pos hc, if_pos hc]
      obtain ⟨h1, h2⟩ := hc
      exact congrArg (fun r => ind (hid (xfOf m c) (V m c main_arg1) (b1Of m c) r k)) (Fin.ext (by show (h.val * 16 + i.val) * 2048 + 2047 = 65535; omega))
    · rw [if_neg hc, if_neg hc]

end Cert.KernelIdeal.Val

end
-- ==== Proof.LibMidUnit.lean ====
/-
  A middle unit axis dropped by a shape cast: an `[a, 1, c]` array cast to `[a, c]` reads, at `(p, k)`, the operand at
  `(p, 0, k)` — row-major, position `(p · 1 + 0) · c + k` of the one is position `p · c + k` of the other. The companion,
  for the middle axis, of the library's leading-unit-axis casts.
-/
import Idealize.ShloMosaic.Lib.Pipeline.Value
import Idealize.ShloMosaic.Lib.ValueIdx

namespace Cert.LibMidUnit

open Idealize.ShloMosaic Idealize.ShloMosaic.ValueIdx

variable {α : Type}

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

end Cert.LibMidUnit
-- ==== Proof.HostSides.lean ====
/-
  The host lines around the kernel's one launch, read at an index.

  Before the launch the program reshapes three arguments: the images `[65536, 28, 28]` to the flat input
  `[65536, 784]`, the first bias `[100]` to one row `[1, 100]`, the second bias `[10]` to one row `[1, 10]`. What the
  launch finds in those three arrays is the reshape of the launched argument; a row read at `(0, q)` is the vector at `q`.

  After the launch the program reshapes the partial counts `[2, 1, 100]` to `[2, 100]`, sums them down the rows from
  the constant zero, and adds the sum to the running frequency vector. Read at unit `k` the result is the launched
  frequency at `k` plus zero plus the two partial counts at `k`.
-/
import proofs.«117802_j59803124630057_2_alg».proof.Proof.Gen.KernelIdeal.Frame
import proofs.«117802_j59803124630057_2_alg».proof.Proof.LibMidUnit
import proofs.«117802_j59803124630057_2_alg».proof.Proof.LibAxisFold
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Mlp.HostK

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-! ## Before the launch -/

/-- The flat input the launch finds is the reshape of the launched images. -/
theorem entry_x :
    (V m c main_v0 : S65536x784.Idx → EReal)
      = shapeCast S65536x784 (m ((c : Thread nD τ).loc main_arg0)) Gen.shapeCasts_S65536x28x28_S65536x784 := by
  show StableHlo.after hostOps0 (fun b => m (c, b)) (Proc.devRef .tc main_v0) = _
  after_results
  rfl

/-- The first bias row the launch finds is the reshape of the launched first bias. -/
theorem entry_b1_eq :
    (V m c main_v1 : S1x100.Idx → EReal)
      = shapeCast S1x100 (m ((c : Thread nD τ).loc main_arg2)) Gen.shapeCasts_S100_S1x100 := by
  show StableHlo.after hostOps0 (fun b => m (c, b)) (Proc.devRef .tc main_v1) = _
  after_results
  rfl

/-- Read at `(0, q)`, it is the launched first bias at `q`. -/
theorem entry_b1 (q : Fin 100) : V m c main_v1 (ix2 0 q) = m ((c : Thread nD τ).loc main_arg2) (ix1 q) :=
  (congrFun (entry_b1_eq m c) (ix2 0 q)).trans (shapeCast_a_1a_apply _ _ 0 q)

/-- The second bias row the launch finds is the reshape of the launched second bias. -/
theorem entry_b2_eq :
    (V m c main_v2 : S1x10.Idx → EReal)
      = shapeCast S1x10 (m ((c : Thread nD τ).loc main_arg5)) Gen.shapeCasts_S10_S1x10 := by
  show StableHlo.after hostOps0 (fun b => m (c, b)) (Proc.devRef .tc main_v2) = _
  after_results
  rfl

/-- Read at `(0, o)`, it is the launched second bias at `o`. -/
theorem entry_b2 (o : Fin 10) : V m c main_v2 (ix2 0 o) = m ((c : Thread nD τ).loc main_arg5) (ix1 o) :=
  (congrFun (entry_b2_eq m c) (ix2 0 o)).trans (shapeCast_a_1a_apply _ _ 0 o)

/-! ## After the launch -/

/-- The updated frequency vector at unit `k`: the launched frequency at `k`, plus the host's sum down the two rows of
    the reshaped partial counts started from the constant zero. The partial counts are what the launch leaves in its
    second result array; the frequency argument is no array of the launch and is found as launched. -/
theorem tail_freq (dats : (p : Fin 1) → (c : Dev nD) → Pipeline.Dat τ (Elt Ideal) Unit ℕ (UR sig nD τ) ℕ (cfgs p) c)
    (k : Fin 100) :
    Pipeline.afterTail₀ cfgs dats 0 (V0 m) [hostOps1] c main_v6 (ix1 k)
      = HAdd.hAdd (α := EReal) (β := EReal) (γ := EReal) (m ((c : Thread nD τ).loc main_arg3) (ix1 k))
          (HAdd.hAdd (α := EReal) (β := EReal) (γ := EReal) 0
            (∑ h : Fin 2, (dats 0 c).arrAt 6 cfg0.N (ix3 h 0 k))) := by
  unfold Pipeline.afterTail₀
  show StableHlo.after hostOps1 _ (Proc.devRef .tc main_v6) (ix1 k) = _
  after_results
  refine congrArg₂ (· + ·) ?_ ?_
  · exact congrFun ((Pipeline.withArrays_of_ne _ c (V0 m c) _ main_arg3
      (by exact (by decide : ∀ w, Pipeline.arrRef spec0 w ≠ main_arg3))).trans (V_main_arg3 m c)) (ix1 k)
  · have hR : S2x100.Reduces [0] S100 := by decide
    refine (Ideal.hostReduceAdd_single Gen.reducesTo_S2x100_S100_d0 hR _ _ (ix1 k)).trans ?_
    refine congrArg₂ (· + ·) Ideal.ofBits_zero_f32 (Finset.sum_congr rfl fun h _ => ?_)
    have hl : hR.lift (ix1 k) h = ix2 h k := LibAxisFold.lift_col hR k h
    show shapeCast S2x100 (Pipeline.withArrays (cfgs 0).spec c (V0 m c) (fun w => (dats 0 c).arrAt w (cfgs 0).N)
      (Proc.devRef .tc main_v3_1)) Gen.shapeCasts_S2x1x100_S2x100 (hR.lift (ix1 k) h) = _
    rw [hl]
    refine (LibMidUnit.shapeCast_a1c_ac_apply _ _ h k).trans ?_
    exact congrFun (Pipeline.withArrays_arr spec0 launch0.win.arr_inj c _ _ 6) (ix3 h 0 k)

end Cert.Mlp.HostK

end
-- ==== Proof.KernelRun.lean ====
/-
  The idealized kernel's run, read: every weakly fair execution ends with the first result holding the class
  probabilities and the second the updated frequencies — the specification's two functions of the argument arrays —
  and the six arguments unchanged.

  The region is launched on the flattened input (a reshape of the first argument) and on the two bias vectors laid
  out as one-row matrices; read back at an index these are the arguments themselves. After the region the host adds
  the two rows of the kernel call's second result and then the old frequencies, starting its sum from zero.
-/
import proofs.«117802_j59803124630057_2_alg».proof.Proof.ValueCount
import proofs.«117802_j59803124630057_2_alg».proof.Proof.HostSides

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body

variable (m : (ℓ : Loc nD τ sig) → Buf (Elt Ideal) ℓ) (ρ : Dev nD → PrngReg)

open Cert.Mlp

/-- The flattened input: the reshape of the first argument to 65536 rows of 784. -/
def flat (c : Dev nD) : Arr SX :=
  shapeCast S65536x784 (m ((c.tc : Thread nD τ).loc main_arg0)) Gen.shapeCasts_S65536x28x28_S65536x784

theorem xfOf_eq (c : Dev nD) : xfOf m c = flat m c := HostK.entry_x m c

theorem b1Of_eq (c : Dev nD) : b1Of m c = m ((c.tc : Thread nD τ).loc main_arg2) :=
  funext fun i => (HostK.entry_b1 m c (i 0)).trans (congrArg _ (eq_ix1 i).symm)

theorem b2Of_eq (c : Dev nD) : b2Of m c = m ((c.tc : Thread nD τ).loc main_arg5) :=
  funext fun i => (HostK.entry_b2 m c (i 0)).trans (congrArg _ (eq_ix1 i).symm)

/-- The class probabilities, from the arguments. -/
def probsK (c : Dev nD) : S65536x10.Idx → EReal :=
  probs (flat m c) (m ((c.tc : Thread nD τ).loc main_arg1)) (m ((c.tc : Thread nD τ).loc main_arg2)) (m ((c.tc : Thread nD τ).loc main_arg4)) (m ((c.tc : Thread nD τ).loc main_arg5))

/-- The updated frequencies, from the arguments. -/
def freqK (c : Dev nD) : S100.Idx → EReal :=
  newFreq (flat m c) (m ((c.tc : Thread nD τ).loc main_arg1)) (m ((c.tc : Thread nD τ).loc main_arg2)) (m ((c.tc : Thread nD τ).loc main_arg3))

theorem probsOf_eq (c : Dev nD) : probsOf m c = probsK m c := by
  unfold probsOf probsK
  rw [xfOf_eq, b1Of_eq, b2Of_eq, V_main_arg1, V_main_arg4]

/-- The second result, after the host's lines behind the region: the old frequency plus the two halves' counts. -/
theorem tail_eq (c : Dev nD) :
    Pipeline.afterTail₀ cfgs (dats m) 0 (V0 m) [hostOps1] c main_v6 = freqK m c := by
  funext i
  obtain ⟨k, rfl⟩ : ∃ k : Fin 100, i = ix1 k := ⟨i 0, eq_ix1 i⟩
  rw [HostK.tail_freq m c (dats m) k, final6, zero_add, counts_total, xfOf_eq, b1Of_eq, V_main_arg1]
  rfl

/-- THE RUN. -/
theorem run : θ_run defs (onTc (τ := τ) (main (F := Ideal))) ⟨m, fun _ => 0, ρ⟩ (fun r => ∀ c : Dev nD,
      r.2.mem ((c.tc : Thread nD τ).loc main_v3_0) = probsK m c
      ∧ r.2.mem ((c.tc : Thread nD τ).loc main_v6) = freqK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 5).trans ((final5 m c).trans (probsOf_eq m c)),
      ((h c).2 main_v6 (Pipeline.mem_restRefs_of main_v6 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c))⟩)
    (run_main (F := Ideal) m ρ)

end Cert.KernelIdeal.Val

end
-- ==== Proof.lean ====
/-
  A two-layer perceptron over 65536 flattened 28×28 images, written as a tiled kernel, against its plain reference.

  Both programs send a row x to h = max(x·W1 + b1, 0) (100 hidden units) and then to the softmax of h·W2 + b2 over 10
  classes, taken stably (the row's maximum is subtracted before the exponential); and both update a frequency vector by
  the number of rows, AMONG THE FIRST 65535, whose hidden unit is strictly positive. The kernel rounds its matrix
  operands to a shorter format first; on the extended reals a change of format is the identity, so the two hidden
  layers and the two softmaxes are the same function index by index. The kernel counts tile by tile — 2048 rows per
  grid point, 16 points per half of the batch, a running count per half kept in a scratch row, the very last row taken
  back out of the very last tile — and the host adds the two halves and the old frequencies; the reference sums the
  first 65535 rows at once. The two counts agree because every indicator is 0 or 1, a real number: a finite sum of
  reals may be regrouped, and adding a real and subtracting it again changes nothing.

  The three frames: each kernel program by its proof data over the 32 grid points (the scratch row's contents carried
  from point to point), at the word-level instance and at the ideal one by the same text; the reference by its run
  with the results dropped. The idealization rewrote no operation, so there is nothing to preserve.
-/
import proofs.«117802_j59803124630057_2_alg».proof.Defs
import proofs.«117802_j59803124630057_2_alg».proof.Proof.Gen.Kernel
import proofs.«117802_j59803124630057_2_alg».proof.Proof.Gen.Kernel.Skeleton
import proofs.«117802_j59803124630057_2_alg».proof.Proof.Gen.Kernel.Launch
import proofs.«117802_j59803124630057_2_alg».proof.Proof.Gen.Kernel.Points
import proofs.«117802_j59803124630057_2_alg».proof.Proof.Gen.Kernel.Frame
import proofs.«117802_j59803124630057_2_alg».proof.Proof.Gen.KernelIdeal
import proofs.«117802_j59803124630057_2_alg».proof.Proof.Gen.KernelIdeal.Skeleton
import proofs.«117802_j59803124630057_2_alg».proof.Proof.Gen.KernelIdeal.Launch
import proofs.«117802_j59803124630057_2_alg».proof.Proof.Gen.KernelIdeal.Points
import proofs.«117802_j59803124630057_2_alg».proof.Proof.Gen.KernelIdeal.Frame
import proofs.«117802_j59803124630057_2_alg».proof.Proof.Gen.ReferenceIdeal
import proofs.«117802_j59803124630057_2_alg».proof.Proof.Gen.Pre_finite_inputs
import proofs.«117802_j59803124630057_2_alg».proof.Proof.Gen.ReferenceIdeal.Read
import Idealize.ShloMosaic.Adequacy
import Idealize.ShloMosaic.Init
import proofs.«117802_j59803124630057_2_alg».proof.Proof.FrameBits.Frame
import proofs.«117802_j59803124630057_2_alg».proof.Proof.KernelRun
import proofs.«117802_j59803124630057_2_alg».proof.Proof.RefIsSpec

noncomputable section

namespace Cert.Proof

open Idealize.ShloMosaic Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Run from memories that agree on the six arguments, the two idealized programs end with the same class
    probabilities and the same updated frequencies: both are the specification's functions of the arguments. -/
theorem algebraic : Cert.algebraic_KernelIdeal_ReferenceIdeal := by
  intro m ρ m' ρ' _ hagree
  refine ⟨fun c => Cert.KernelIdeal.Val.probsK m c, fun c => Cert.KernelIdeal.Val.freqK m c, Cert.KernelIdeal.Val.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v26_eq, Cert.Mlp.Ref.ref_probs,
      (hagree c).1, (hagree c).2.1, (hagree c).2.2.1, (hagree c).2.2.2.2.1, (hagree c).2.2.2.2.2]
    rfl
  · rw [(h c).2.1, Cert.ReferenceIdeal.Read.val_main_v11_eq, Cert.Mlp.Ref.ref_newFreq,
      (hagree c).1, (hagree c).2.1, (hagree c).2.2.1, (hagree c).2.2.2.1]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
